-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v177)) (v1 : (c : Dev Cert.KernelIdeal.nD) → Buf (Elt Ideal) ((c.tc : Thread Cert.KernelIdeal.nD Cert.KernelIdeal.τ).loc Cert.KernelIdeal.main_v194)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v177) = v0 c
          ∧ r.2.mem ((c.tc : Thread Cert.KernelIdeal.nD Cert.KernelIdeal.τ).loc Cert.KernelIdeal.main_v194) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_v206) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S200000 : Shape := ⟨1, ![200000]⟩
abbrev S128x128 : Shape := ⟨2, ![128, 128]⟩
abbrev S128 : Shape := ⟨1, ![128]⟩
abbrev S256x2 : Shape := ⟨2, ![256, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg13 : FVec F S128x128 .f32) (main_arg14 : FVec F S128 .f32) (main_arg15 : FVec F S256x2 .f32) (main_arg16 : FVec F S2 .f32) (main_v33 : IVec S_ 1) : IVec S_ 1 :=
  let main_v34 : FVec F S128x128 .f32 := Host.absf main_arg13
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg14
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x2 .f32 := Host.absf main_arg15
  let main_cst_16 : FVec F S_ .f32 := constant S_ .f32 0x7F800000#32
  let main_v45 : FVec F S256x2 .f32 := broadcastInDim S256x2 ![] bcast_S_S256x2 main_cst_16
  let main_v46 : IVec S256x2 1 := cmpf .olt main_v44 main_v45
  let main_c_17 : IVec S_ 1 := constantI S_ 1 1#1
  let main_v47 : IVec S_ 1 := (fun x v => Host.reduce IntOp.andi x v reducesTo_S256x2_S_d0_1 h_S_) main_v46 main_c_17
  let main_v48 : IVec S_ 1 := andi main_v43 main_v47
  let main_v49 : FVec F S2 .f32 := Host.absf main_arg16
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg10 : FVec F S128 .f32) (main_arg11 : FVec F S128x128 .f32) (main_arg12 : FVec F S128 .f32) (main_arg13 : FVec F S128x128 .f32) (main_arg14 : FVec F S128 .f32) (main_arg15 : FVec F S256x2 .f32) (main_arg16 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg10
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg11
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg12
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg13 main_arg14 main_arg15 main_arg16 main_v33

def fn {F : FTy → Type} [FloatOps F] (main_arg0 : FVec F S100000x128 .f32) (main_arg1 : IVec S1600000 32) (main_arg2 : IVec S1600000 32) (main_arg3 : IVec S1600000 32) (main_arg4 : IVec S1600000 32) (main_arg5 : IVec S200000 32) (main_arg6 : IVec S200000 32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S256x2 .f32) (main_arg16 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg7
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg8
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg9
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg10 main_arg11 main_arg12 main_arg13 main_arg14 main_arg15 main_arg16 main_v13 main_v16
-- ==== Kernel.lean ====
abbrev S100000x128 : Shape := ⟨2, ![100000, 128]⟩
abbrev S1600000 : Shape := ⟨1, ![1600000]⟩
abbrev S200000 : Shape := ⟨1, ![200000]⟩
abbrev S128x128 : Shape := ⟨2, ![128, 128]⟩
abbrev S128 : Shape := ⟨1, ![128]⟩
abbrev S256x2 : Shape := ⟨2, ![256, 2]⟩
abbrev S2 : Shape := ⟨1, ![2]⟩
abbrev S128x256 : Shape := ⟨2, ![128, 256]⟩
abbrev S100000x256 : Shape := ⟨2, ![100000, 256]⟩
abbrev S2000x128 : Shape := ⟨2, ![2000, 128]⟩
abbrev S2000x256 : Shape := ⟨2, ![2000, 256]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S1x128 : Shape := ⟨2, ![1, 128]⟩
abbrev S200000x1 : Shape := ⟨2, ![200000, 1]⟩
abbrev S200000x128 : Shape := ⟨2, ![200000, 128]⟩
abbrev S200000x256 : Shape := ⟨2, ![200000, 256]⟩
abbrev S1x2 : Shape := ⟨2, ![1, 2]⟩
abbrev S200000x2 : Shape := ⟨2, ![200000, 2]⟩
abbrev S4000x256 : Shape := ⟨2, ![4000, 256]⟩
abbrev S4000x2 : Shape := ⟨2, ![4000, 2]⟩

abbrev nBuf : Space → Nat
  | .hbm => 264
  | .vmem => 32
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S1600000, .i32⟩
  | 4 => ⟨S1600000, .i32⟩
  | 5 => ⟨S200000, .i32⟩
  | 6 => ⟨S200000, .i32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S256x2, .f32⟩
  | 16 => ⟨S2, .f32⟩
  | 17 => ⟨S128x256, .f32⟩
  | 18 => ⟨S100000x256, .f32⟩
  | 19 => ⟨S100000x128, .f32⟩
  | 20 => ⟨S100000x128, .f32⟩
  | 21 => ⟨S_, .f32⟩
  | 22 => ⟨S1600000, .f32⟩
  | 23 => ⟨S_, .f32⟩
  | 24 => ⟨S100000, .f32⟩
  | 25 => ⟨S1600000x1, .i32⟩
  | 26 => ⟨S100000, .f32⟩
  | 27 => ⟨S_, .f32⟩
  | 28 => ⟨S100000, .f32⟩
  | 29 => ⟨S1600000x1, .i32⟩
  | 30 => ⟨S100000, .f32⟩
  | 31 => ⟨S_, .f32⟩
  | 32 => ⟨S100000, .f32⟩
  | 33 => ⟨S100000, .f32⟩
  | 34 => ⟨S100000, .f32⟩
  | 35 => ⟨S_, .f32⟩
  | 36 => ⟨S100000, .f32⟩
  | 37 => ⟨S100000, .f32⟩
  | 38 => ⟨S100000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000, .f32⟩
  | 57 => ⟨S1600000, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x128, .f32⟩
  | 67 => ⟨S1600000x1, .f32⟩
  | 68 => ⟨S1600000x128, .f32⟩
  | 69 => ⟨S1600000x128, .f32⟩
  | 70 => ⟨S_, .f32⟩
  | 71 => ⟨S100000x128, .f32⟩
  | 72 => ⟨S1600000x1, .i32⟩
  | 73 => ⟨S100000x128, .f32⟩
  | 74 => ⟨S_, .f32⟩
  | 75 => ⟨S1600000, .f32⟩
  | 76 => ⟨S_, .f32⟩
  | 77 => ⟨S100000, .f32⟩
  | 78 => ⟨S1600000x1, .i32⟩
  | 79 => ⟨S100000, .f32⟩
  | 80 => ⟨S_, .f32⟩
  | 81 => ⟨S100000, .f32⟩
  | 82 => ⟨S1600000x1, .i32⟩
  | 83 => ⟨S100000, .f32⟩
  | 84 => ⟨S_, .f32⟩
  | 85 => ⟨S100000, .f32⟩
  | 86 => ⟨S100000, .f32⟩
  | 87 => ⟨S100000, .f32⟩
  | 88 => ⟨S_, .f32⟩
  | 89 => ⟨S100000, .f32⟩
  | 90 => ⟨S100000, .f32⟩
  | 91 => ⟨S100000, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000, .f32⟩
  | 110 => ⟨S1600000, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000x128, .f32⟩
  | 120 => ⟨S1600000x1, .f32⟩
  | 121 => ⟨S1600000x128, .f32⟩
  | 122 => ⟨S1600000x128, .f32⟩
  | 123 => ⟨S_, .f32⟩
  | 124 => ⟨S100000x128, .f32⟩
  | 125 => ⟨S1600000x1, .i32⟩
  | 126 => ⟨S100000x128, .f32⟩
  | 127 => ⟨S1x128, .f32⟩
  | _ => ⟨S100000x128, .f32⟩

abbrev hbmTy0_1 (i : Nat) : BufTy := match i % 128 with
  | 0 => ⟨S1x128, .f32⟩
  | 1 => ⟨S100000x128, .f32⟩
  | 2 => ⟨S128x256, .f32⟩
  | 3 => ⟨S100000x256, .f32⟩
  | 4 => ⟨S100000x128, .f32⟩
  | 5 => ⟨S100000x128, .f32⟩
  | 6 => ⟨S_, .f32⟩
  | 7 => ⟨S1600000, .f32⟩
  | 8 => ⟨S_, .f32⟩
  | 9 => ⟨S100000, .f32⟩
  | 10 => ⟨S1600000x1, .i32⟩
  | 11 => ⟨S100000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .f32⟩
  | 19 => ⟨S100000, .f32⟩
  | 20 => ⟨S_, .f32⟩
  | 21 => ⟨S100000, .f32⟩
  | 22 => ⟨S100000, .f32⟩
  | 23 => ⟨S100000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x128, .f32⟩
  | 52 => ⟨S1600000x1, .f32⟩
  | 53 => ⟨S1600000x128, .f32⟩
  | 54 => ⟨S1600000x128, .f32⟩
  | 55 => ⟨S_, .f32⟩
  | 56 => ⟨S100000x128, .f32⟩
  | 57 => ⟨S1600000x1, .i32⟩
  | 58 => ⟨S100000x128, .f32⟩
  | 59 => ⟨S_, .f32⟩
  | 60 => ⟨S1600000, .f32⟩
  | 61 => ⟨S_, .f32⟩
  | 62 => ⟨S100000, .f32⟩
  | 63 => ⟨S1600000x1, .i32⟩
  | 64 => ⟨S100000, .f32⟩
  | 65 => ⟨S_, .f32⟩
  | 66 => ⟨S100000, .f32⟩
  | 67 => ⟨S1600000x1, .i32⟩
  | 68 => ⟨S100000, .f32⟩
  | 69 => ⟨S_, .f32⟩
  | 70 => ⟨S100000, .f32⟩
  | 71 => ⟨S100000, .f32⟩
  | 72 => ⟨S100000, .f32⟩
  | 73 => ⟨S_, .f32⟩
  | 74 => ⟨S100000, .f32⟩
  | 75 => ⟨S100000, .f32⟩
  | 76 => ⟨S100000, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000, .f32⟩
  | 95 => ⟨S1600000, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000x128, .f32⟩
  | 105 => ⟨S1600000x1, .f32⟩
  | 106 => ⟨S1600000x128, .f32⟩
  | 107 => ⟨S1600000x128, .f32⟩
  | 108 => ⟨S_, .f32⟩
  | 109 => ⟨S100000x128, .f32⟩
  | 110 => ⟨S1600000x1, .i32⟩
  | 111 => ⟨S100000x128, .f32⟩
  | 112 => ⟨S1x128, .f32⟩
  | 113 => ⟨S1x128, .f32⟩
  | 114 => ⟨S100000x128, .f32⟩
  | 115 => ⟨S_, .i32⟩
  | 116 => ⟨S200000, .i32⟩
  | 117 => ⟨S200000, .i1⟩
  | 118 => ⟨S_, .i32⟩
  | 119 => ⟨S200000, .i32⟩
  | 120 => ⟨S200000, .i32⟩
  | 121 => ⟨S200000, .i32⟩
  | 122 => ⟨S200000x1, .i32⟩
  | 123 => ⟨S200000x128, .f32⟩
  | 124 => ⟨S_, .i32⟩
  | 125 => ⟨S200000, .i32⟩
  | 126 => ⟨S200000, .i1⟩
  | 127 => ⟨S_, .i32⟩
  | _ => ⟨S100000x128, .f32⟩

abbrev hbmTy0_2 (i : Nat) : BufTy := match i % 128 with
  | 0 => ⟨S200000, .i32⟩
  | 1 => ⟨S200000, .i32⟩
  | 2 => ⟨S200000, .i32⟩
  | 3 => ⟨S200000x1, .i32⟩
  | 4 => ⟨S200000x128, .f32⟩
  | 5 => ⟨S200000x256, .f32⟩
  | 6 => ⟨S1x2, .f32⟩
  | 7 => ⟨S200000x2, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x256, .f32⟩
  | .local _ .vmem, ⟨4, _⟩ => ⟨S2000x256, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S1x128, .f32⟩
  | .local _ .vmem, ⟨10, _⟩ => ⟨S1x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S128x256, .f32⟩
  | .local _ .vmem, ⟨16, _⟩ => ⟨S2000x256, .f32⟩
  | .local _ .vmem, ⟨17, _⟩ => ⟨S2000x256, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S1x128, .f32⟩
  | .local _ .vmem, ⟨23, _⟩ => ⟨S1x128, .f32⟩
  | .local _ .vmem, ⟨24, _⟩ => ⟨S2000x128, .f32⟩
  | .local _ .vmem, ⟨25, _⟩ => ⟨S2000x128, .f32⟩
  | .local _ .vmem, ⟨26, _⟩ => ⟨S4000x256, .f32⟩
  | .local _ .vmem, ⟨27, _⟩ => ⟨S4000x256, .f32⟩
  | .local _ .vmem, ⟨28, _⟩ => ⟨S256x2, .f32⟩
  | .local _ .vmem, ⟨29, _⟩ => ⟨S1x2, .f32⟩
  | .local _ .vmem, ⟨30, _⟩ => ⟨S4000x2, .f32⟩
  | .local _ .vmem, ⟨31, _⟩ => ⟨S4000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_c_4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_c_6 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_7 : Ref sig .tc := ⟨.hbm, 58, rfl⟩
abbrev main_v32 : Ref sig .tc := ⟨.hbm, 59, rfl⟩
abbrev main_v33 : Ref sig .tc := ⟨.hbm, 60, rfl⟩
abbrev main_c_8 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_9 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_10 : Ref sig .tc := ⟨.hbm, 74, rfl⟩
abbrev main_v45 : Ref sig .tc := ⟨.hbm, 75, rfl⟩
abbrev main_cst_11 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_12 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_13 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_14 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_c_15 : Ref sig .tc := ⟨.hbm, 92, rfl⟩
abbrev main_v58 : Ref sig .tc := ⟨.hbm, 93, rfl⟩
abbrev main_v59 : Ref sig .tc := ⟨.hbm, 94, rfl⟩
abbrev main_c_16 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_c_17 : Ref sig .tc := ⟨.hbm, 101, rfl⟩
abbrev main_v65 : Ref sig .tc := ⟨.hbm, 102, rfl⟩
abbrev main_v66 : Ref sig .tc := ⟨.hbm, 103, rfl⟩
abbrev main_c_18 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_c_19 : Ref sig .tc := ⟨.hbm, 111, rfl⟩
abbrev main_v73 : Ref sig .tc := ⟨.hbm, 112, rfl⟩
abbrev main_v74 : Ref sig .tc := ⟨.hbm, 113, rfl⟩
abbrev main_c_20 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_21 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_cst_22 : Ref sig .tc := ⟨.hbm, 134, rfl⟩
abbrev main_v93 : Ref sig .tc := ⟨.hbm, 135, rfl⟩
abbrev main_cst_23 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_24 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_25 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_cst_26 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_c_27 : Ref sig .tc := ⟨.hbm, 152, rfl⟩
abbrev main_v106 : Ref sig .tc := ⟨.hbm, 153, rfl⟩
abbrev main_v107 : Ref sig .tc := ⟨.hbm, 154, rfl⟩
abbrev main_c_28 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_c_29 : Ref sig .tc := ⟨.hbm, 161, rfl⟩
abbrev main_v113 : Ref sig .tc := ⟨.hbm, 162, rfl⟩
abbrev main_v114 : Ref sig .tc := ⟨.hbm, 163, rfl⟩
abbrev main_c_30 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_c_31 : Ref sig .tc := ⟨.hbm, 171, rfl⟩
abbrev main_v121 : Ref sig .tc := ⟨.hbm, 172, rfl⟩
abbrev main_v122 : Ref sig .tc := ⟨.hbm, 173, rfl⟩
abbrev main_c_32 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_cst_33 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_cst_34 : Ref sig .tc := ⟨.hbm, 187, rfl⟩
abbrev main_v134 : Ref sig .tc := ⟨.hbm, 188, rfl⟩
abbrev main_cst_35 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_cst_36 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_cst_37 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_cst_38 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_c_39 : Ref sig .tc := ⟨.hbm, 205, rfl⟩
abbrev main_v147 : Ref sig .tc := ⟨.hbm, 206, rfl⟩
abbrev main_v148 : Ref sig .tc := ⟨.hbm, 207, rfl⟩
abbrev main_c_40 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_c_41 : Ref sig .tc := ⟨.hbm, 214, rfl⟩
abbrev main_v154 : Ref sig .tc := ⟨.hbm, 215, rfl⟩
abbrev main_v155 : Ref sig .tc := ⟨.hbm, 216, rfl⟩
abbrev main_c_42 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_c_43 : Ref sig .tc := ⟨.hbm, 224, rfl⟩
abbrev main_v162 : Ref sig .tc := ⟨.hbm, 225, rfl⟩
abbrev main_v163 : Ref sig .tc := ⟨.hbm, 226, rfl⟩
abbrev main_c_44 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_cst_45 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_c_46 : Ref sig .tc := ⟨.hbm, 243, rfl⟩
abbrev main_v178 : Ref sig .tc := ⟨.hbm, 244, rfl⟩
abbrev main_v179 : Ref sig .tc := ⟨.hbm, 245, rfl⟩
abbrev main_c_47 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_c_48 : Ref sig .tc := ⟨.hbm, 252, rfl⟩
abbrev main_v185 : Ref sig .tc := ⟨.hbm, 253, rfl⟩
abbrev main_v186 : Ref sig .tc := ⟨.hbm, 254, rfl⟩
abbrev main_c_49 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_v192 : Ref sig .tc := ⟨.hbm, 261, rfl⟩
abbrev main_v193 : Ref sig .tc := ⟨.hbm, 262, rfl⟩
abbrev main_v194 : Ref sig .tc := ⟨.hbm, 263, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg4_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem4_0 : DmaSem sig := 24
abbrev cc3_sem4_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S4000x2 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  concatenates_S128x128_S128x128_S128x256_d1 : Shape.Concatenates [S128x128, S128x128] S128x256 1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S2000x256_S2000x256_0_0 : ∀ a, (![0, 0] : Fin 2 → Nat) a + S2000x256.size a ≤ S2000x256.size a
  h_S2000x256 : 0 < S2000x256.numel
  slices_S100000x256_S100000x128_0_0 : S100000x256.Slices ![0, 0] S100000x128
  slices_S100000x256_S100000x128_0_128 : S100000x256.Slices ![0, 128] S100000x128
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x128_S200000x256_d1 : Shape.Concatenates [S200000x128, S200000x128] S200000x256 1
  shapeCasts_S2_S1x2 : S2.ShapeCasts S1x2
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S256x2_S256x2_0_0 : ∀ a, (![0, 0] : Fin 2 → Nat) a + S256x2.size a ≤ S256x2.size a
  h_S256x2 : 0 < S256x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4000x2 : S1x2.Broadcasts S4000x2
  inb_S4000x2_S4000x2_0_0 : ∀ a, (![0, 0] : Fin 2 → Nat) a + S4000x2.size a ≤ S4000x2.size a
  h_S4000x2 : 0 < S4000x2.numel
  dot_S2000x128_S128x256_S2000x256_1_0_0_1_n_n_wf : DotDims.WF S2000x128 S128x256 S2000x256 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  gather_S100000x128_S200000x1_S200000x128_1_0_n_n_0_1_1128_wf : GatherDims.WF S100000x128 S200000x1 S200000x128 [1] [0] [] [0] [] 1 ![1, 128]
  dot_S4000x256_S256x2_S4000x2_1_0_0_1_n_n_wf : DotDims.WF S4000x256 S256x2 S4000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S100000x256.size a
  hwx0_2 : ∀ i : grid0.Coords, EltTy.bits .f32 = 32 ∨ (Rect.block (s := S100000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .f32 = 32 ∨ (Rect.block (s := S100000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S100000x256.size a
  hwx2_2 : ∀ i : grid2.Coords, EltTy.bits .f32 = 32 ∨ (Rect.block (s := S100000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S100000x128.size a
  hwx3_4 : ∀ i : grid3.Coords, EltTy.bits .f32 = 32 ∨ (Rect.block (s := S100000x128) S2000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x256.size a ≤ S200000x256.size a
  hwx4_0 : ∀ i : grid4.Coords, EltTy.bits .f32 = 32 ∨ (Rect.block (s := S200000x256) S4000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x2.size a ≤ S256x2.size a
  hwx4_1 : ∀ i : grid4.Coords, EltTy.bits .f32 = 32 ∨ (Rect.block (s := S256x2) S256x2.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2.size a ≤ S1x2.size a
  hwx4_2 : ∀ i : grid4.Coords, EltTy.bits .f32 = 32 ∨ (Rect.block (s := S1x2) S1x2.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x2.size a ≤ S200000x2.size a
  hwx4_3 : ∀ i : grid4.Coords, EltTy.bits .f32 = 32 ∨ (Rect.block (s := S200000x2) S4000x2.size (cc4_transform_3 i) (hinb4_3 i)).WholeWords (EltTy.packing .f32)

variable [Facts₀]

def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def dot_S4000x256_S256x2_S4000x2_1_0_0_1_n_n : DotDims S4000x256 S256x2 S4000x2 where
  lhsContracting := [1]
  rhsContracting := [0]
  lhsNonContracting := [0]
  rhsNonContracting := [1]
  lhsBatch := []
  rhsBatch := []
  wf := dot_S4000x256_S256x2_S4000x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v85) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v86) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v87) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v88) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v88) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v89) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v90) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v133) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v174) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v175) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v176) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v177) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v192) S4000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg15) S256x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v193) S1x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v194) S4000x2.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S1600000 : Shape := ⟨1, ![1600000]⟩
abbrev S200000 : Shape := ⟨1, ![200000]⟩
abbrev S128x128 : Shape := ⟨2, ![128, 128]⟩
abbrev S128 : Shape := ⟨1, ![128]⟩
abbrev S256x2 : Shape := ⟨2, ![256, 2]⟩
abbrev S2 : Shape := ⟨1, ![2]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S1x128 : Shape := ⟨2, ![1, 128]⟩
abbrev S200000x1 : Shape := ⟨2, ![200000, 1]⟩
abbrev S200000x128 : Shape := ⟨2, ![200000, 128]⟩
abbrev S200000x256 : Shape := ⟨2, ![200000, 256]⟩
abbrev S200000x2 : Shape := ⟨2, ![200000, 2]⟩
abbrev S1x2 : Shape := ⟨2, ![1, 2]⟩

abbrev nBuf : Space → Nat
  | .hbm => 282
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S1600000, .i32⟩
  | 4 => ⟨S1600000, .i32⟩
  | 5 => ⟨S200000, .i32⟩
  | 6 => ⟨S200000, .i32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S256x2, .f32⟩
  | 16 => ⟨S2, .f32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S1600000x1, .i32⟩
  | 26 => ⟨S100000, .f32⟩
  | 27 => ⟨S_, .f32⟩
  | 28 => ⟨S100000, .f32⟩
  | 29 => ⟨S100000, .f32⟩
  | 30 => ⟨S100000, .f32⟩
  | 31 => ⟨S_, .f32⟩
  | 32 => ⟨S100000, .f32⟩
  | 33 => ⟨S100000, .f32⟩
  | 34 => ⟨S100000, .f32⟩
  | 35 => ⟨S100000x128, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x128, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000, .f32⟩
  | 63 => ⟨S1600000, .f32⟩
  | 64 => ⟨S1600000x1, .f32⟩
  | 65 => ⟨S1600000x128, .f32⟩
  | 66 => ⟨S1600000x128, .f32⟩
  | 67 => ⟨S_, .f32⟩
  | 68 => ⟨S100000x128, .f32⟩
  | 69 => ⟨S1600000x1, .i32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S1600000, .f32⟩
  | 76 => ⟨S_, .f32⟩
  | 77 => ⟨S100000, .f32⟩
  | 78 => ⟨S1600000x1, .i32⟩
  | 79 => ⟨S100000, .f32⟩
  | 80 => ⟨S_, .f32⟩
  | 81 => ⟨S100000, .f32⟩
  | 82 => ⟨S1600000x1, .i32⟩
  | 83 => ⟨S100000, .f32⟩
  | 84 => ⟨S_, .f32⟩
  | 85 => ⟨S100000, .f32⟩
  | 86 => ⟨S100000, .f32⟩
  | 87 => ⟨S100000, .f32⟩
  | 88 => ⟨S_, .f32⟩
  | 89 => ⟨S100000, .f32⟩
  | 90 => ⟨S100000, .f32⟩
  | 91 => ⟨S100000, .f32⟩
  | 92 => ⟨S100000x128, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x128, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000, .f32⟩
  | 120 => ⟨S1600000, .f32⟩
  | 121 => ⟨S1600000x1, .f32⟩
  | 122 => ⟨S1600000x128, .f32⟩
  | 123 => ⟨S1600000x128, .f32⟩
  | 124 => ⟨S_, .f32⟩
  | 125 => ⟨S100000x128, .f32⟩
  | 126 => ⟨S1600000x1, .i32⟩
  | 127 => ⟨S100000x128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S100000x128, .f32⟩
  | 4 => ⟨S_, .f32⟩
  | 5 => ⟨S100000x128, .f32⟩
  | 6 => ⟨S100000x128, .f32⟩
  | 7 => ⟨S_, .f32⟩
  | 8 => ⟨S100000x128, .f32⟩
  | 9 => ⟨S100000x128, .f32⟩
  | 10 => ⟨S_, .f32⟩
  | 11 => ⟨S1600000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S_, .f32⟩
  | 25 => ⟨S100000, .f32⟩
  | 26 => ⟨S100000, .f32⟩
  | 27 => ⟨S100000, .f32⟩
  | 28 => ⟨S100000x128, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x128, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000, .f32⟩
  | 56 => ⟨S1600000, .f32⟩
  | 57 => ⟨S1600000x1, .f32⟩
  | 58 => ⟨S1600000x128, .f32⟩
  | 59 => ⟨S1600000x128, .f32⟩
  | 60 => ⟨S_, .f32⟩
  | 61 => ⟨S100000x128, .f32⟩
  | 62 => ⟨S1600000x1, .i32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S1600000, .f32⟩
  | 69 => ⟨S_, .f32⟩
  | 70 => ⟨S100000, .f32⟩
  | 71 => ⟨S1600000x1, .i32⟩
  | 72 => ⟨S100000, .f32⟩
  | 73 => ⟨S_, .f32⟩
  | 74 => ⟨S100000, .f32⟩
  | 75 => ⟨S1600000x1, .i32⟩
  | 76 => ⟨S100000, .f32⟩
  | 77 => ⟨S_, .f32⟩
  | 78 => ⟨S100000, .f32⟩
  | 79 => ⟨S100000, .f32⟩
  | 80 => ⟨S100000, .f32⟩
  | 81 => ⟨S_, .f32⟩
  | 82 => ⟨S100000, .f32⟩
  | 83 => ⟨S100000, .f32⟩
  | 84 => ⟨S100000, .f32⟩
  | 85 => ⟨S100000x128, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000x128, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000, .f32⟩
  | 113 => ⟨S1600000, .f32⟩
  | 114 => ⟨S1600000x1, .f32⟩
  | 115 => ⟨S1600000x128, .f32⟩
  | 116 => ⟨S1600000x128, .f32⟩
  | 117 => ⟨S_, .f32⟩
  | 118 => ⟨S100000x128, .f32⟩
  | 119 => ⟨S1600000x1, .i32⟩
  | 120 => ⟨S100000x128, .f32⟩
  | 121 => ⟨S1x128, .f32⟩
  | 122 => ⟨S100000x128, .f32⟩
  | 123 => ⟨S100000x128, .f32⟩
  | 124 => ⟨S100000x128, .f32⟩
  | 125 => ⟨S_, .f32⟩
  | 126 => ⟨S100000x128, .f32⟩
  | 127 => ⟨S100000x128, .f32⟩
  | _ => ⟨S100000x128, .f32⟩

abbrev hbmTy0_2 (i : Nat) : BufTy := match i % 128 with
  | 0 => ⟨S_, .f32⟩
  | 1 => ⟨S100000x128, .f32⟩
  | 2 => ⟨S100000x128, .f32⟩
  | 3 => ⟨S_, .i32⟩
  | 4 => ⟨S200000, .i32⟩
  | 5 => ⟨S200000, .i1⟩
  | 6 => ⟨S_, .i32⟩
  | 7 => ⟨S200000, .i32⟩
  | 8 => ⟨S200000, .i32⟩
  | 9 => ⟨S200000, .i32⟩
  | 10 => ⟨S200000x1, .i32⟩
  | 11 => ⟨S200000x128, .f32⟩
  | 12 => ⟨S_, .i32⟩
  | 13 => ⟨S200000, .i32⟩
  | 14 => ⟨S200000, .i1⟩
  | 15 => ⟨S_, .i32⟩
  | 16 => ⟨S200000, .i32⟩
  | 17 => ⟨S200000, .i32⟩
  | 18 => ⟨S200000, .i32⟩
  | 19 => ⟨S200000x1, .i32⟩
  | 20 => ⟨S200000x128, .f32⟩
  | 21 => ⟨S200000x256, .f32⟩
  | 22 => ⟨S200000x2, .f32⟩
  | 23 => ⟨S1x2, .f32⟩
  | 24 => ⟨S200000x2, .f32⟩
  | 25 => ⟨S200000x2, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_2 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_3 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c : Ref sig .tc := ⟨.hbm, 36, rfl⟩
abbrev main_v14 : Ref sig .tc := ⟨.hbm, 37, rfl⟩
abbrev main_v15 : Ref sig .tc := ⟨.hbm, 38, rfl⟩
abbrev main_c_4 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_5 : Ref sig .tc := ⟨.hbm, 45, rfl⟩
abbrev main_v21 : Ref sig .tc := ⟨.hbm, 46, rfl⟩
abbrev main_v22 : Ref sig .tc := ⟨.hbm, 47, rfl⟩
abbrev main_c_6 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_c_7 : Ref sig .tc := ⟨.hbm, 54, rfl⟩
abbrev main_v28 : Ref sig .tc := ⟨.hbm, 55, rfl⟩
abbrev main_v29 : Ref sig .tc := ⟨.hbm, 56, rfl⟩
abbrev main_c_8 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_9 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_10 : Ref sig .tc := ⟨.hbm, 74, rfl⟩
abbrev main_v45 : Ref sig .tc := ⟨.hbm, 75, rfl⟩
abbrev main_cst_11 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_12 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_13 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_14 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_c_15 : Ref sig .tc := ⟨.hbm, 93, rfl⟩
abbrev main_v59 : Ref sig .tc := ⟨.hbm, 94, rfl⟩
abbrev main_v60 : Ref sig .tc := ⟨.hbm, 95, rfl⟩
abbrev main_c_16 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_c_17 : Ref sig .tc := ⟨.hbm, 102, rfl⟩
abbrev main_v66 : Ref sig .tc := ⟨.hbm, 103, rfl⟩
abbrev main_v67 : Ref sig .tc := ⟨.hbm, 104, rfl⟩
abbrev main_c_18 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_c_19 : Ref sig .tc := ⟨.hbm, 111, rfl⟩
abbrev main_v73 : Ref sig .tc := ⟨.hbm, 112, rfl⟩
abbrev main_v74 : Ref sig .tc := ⟨.hbm, 113, rfl⟩
abbrev main_c_20 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_21 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_22 : Ref sig .tc := ⟨.hbm, 132, rfl⟩
abbrev main_v91 : Ref sig .tc := ⟨.hbm, 133, rfl⟩
abbrev main_v92 : Ref sig .tc := ⟨.hbm, 134, rfl⟩
abbrev main_call0_cst : Ref sig .tc := ⟨.hbm, 135, rfl⟩
abbrev main_call0_v0 : Ref sig .tc := ⟨.hbm, 136, rfl⟩
abbrev main_v93 : Ref sig .tc := ⟨.hbm, 137, rfl⟩
abbrev main_cst_23 : Ref sig .tc := ⟨.hbm, 138, rfl⟩
abbrev main_v94 : Ref sig .tc := ⟨.hbm, 139, rfl⟩
abbrev main_cst_24 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_cst_25 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_cst_26 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_cst_27 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_c_28 : Ref sig .tc := ⟨.hbm, 157, rfl⟩
abbrev main_v108 : Ref sig .tc := ⟨.hbm, 158, rfl⟩
abbrev main_v109 : Ref sig .tc := ⟨.hbm, 159, rfl⟩
abbrev main_c_29 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_c_30 : Ref sig .tc := ⟨.hbm, 166, rfl⟩
abbrev main_v115 : Ref sig .tc := ⟨.hbm, 167, rfl⟩
abbrev main_v116 : Ref sig .tc := ⟨.hbm, 168, rfl⟩
abbrev main_c_31 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_c_32 : Ref sig .tc := ⟨.hbm, 175, rfl⟩
abbrev main_v122 : Ref sig .tc := ⟨.hbm, 176, rfl⟩
abbrev main_v123 : Ref sig .tc := ⟨.hbm, 177, rfl⟩
abbrev main_c_33 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_cst_34 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_cst_35 : Ref sig .tc := ⟨.hbm, 195, rfl⟩
abbrev main_v139 : Ref sig .tc := ⟨.hbm, 196, rfl⟩
abbrev main_cst_36 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_cst_37 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_cst_38 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_cst_39 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_c_40 : Ref sig .tc := ⟨.hbm, 214, rfl⟩
abbrev main_v153 : Ref sig .tc := ⟨.hbm, 215, rfl⟩
abbrev main_v154 : Ref sig .tc := ⟨.hbm, 216, rfl⟩
abbrev main_c_41 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_c_42 : Ref sig .tc := ⟨.hbm, 223, rfl⟩
abbrev main_v160 : Ref sig .tc := ⟨.hbm, 224, rfl⟩
abbrev main_v161 : Ref sig .tc := ⟨.hbm, 225, rfl⟩
abbrev main_c_43 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_c_44 : Ref sig .tc := ⟨.hbm, 232, rfl⟩
abbrev main_v167 : Ref sig .tc := ⟨.hbm, 233, rfl⟩
abbrev main_v168 : Ref sig .tc := ⟨.hbm, 234, rfl⟩
abbrev main_c_45 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_cst_46 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_cst_47 : Ref sig .tc := ⟨.hbm, 253, rfl⟩
abbrev main_v185 : Ref sig .tc := ⟨.hbm, 254, rfl⟩
abbrev main_v186 : Ref sig .tc := ⟨.hbm, 255, rfl⟩
abbrev main_call1_cst : Ref sig .tc := ⟨.hbm, 256, rfl⟩
abbrev main_call1_v0 : Ref sig .tc := ⟨.hbm, 257, rfl⟩
abbrev main_v187 : Ref sig .tc := ⟨.hbm, 258, rfl⟩
abbrev main_c_48 : Ref sig .tc := ⟨.hbm, 259, rfl⟩
abbrev main_v188 : Ref sig .tc := ⟨.hbm, 260, rfl⟩
abbrev main_v189 : Ref sig .tc := ⟨.hbm, 261, rfl⟩
abbrev main_c_49 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_c_50 : Ref sig .tc := ⟨.hbm, 268, rfl⟩
abbrev main_v195 : Ref sig .tc := ⟨.hbm, 269, rfl⟩
abbrev main_v196 : Ref sig .tc := ⟨.hbm, 270, rfl⟩
abbrev main_c_51 : Ref sig .tc := ⟨.hbm, 271, rfl⟩
abbrev main_v197 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_v201 : Ref sig .tc := ⟨.hbm, 276, rfl⟩
abbrev main_v202 : Ref sig .tc := ⟨.hbm, 277, rfl⟩
abbrev main_v203 : Ref sig .tc := ⟨.hbm, 278, rfl⟩
abbrev main_v204 : Ref sig .tc := ⟨.hbm, 279, rfl⟩
abbrev main_v205 : Ref sig .tc := ⟨.hbm, 280, rfl⟩
abbrev main_v206 : Ref sig .tc := ⟨.hbm, 281, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x128_S200000x256_d1 : Shape.Concatenates [S200000x128, S200000x128] S200000x256 1
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  gather_S100000_S1600000x1_S1600000_n_0_n_n_0_1_1_wf : GatherDims.WF S100000 S1600000x1 S1600000 [] [0] [] [0] [] 1 ![1]
  scatter_S100000x128_S1600000x1_S1600000x128_1_0_0_1_wf : ScatterDims.WF S100000x128 S1600000x1 S1600000x128 [1] [0] [0] 1
  gather_S100000x128_S200000x1_S200000x128_1_0_n_n_0_1_1128_wf : GatherDims.WF S100000x128 S200000x1 S200000x128 [1] [0] [] [0] [] 1 ![1, 128]
  dot_S200000x256_S256x2_S200000x2_1_0_0_1_n_n_wf : DotDims.WF S200000x256 S256x2 S200000x2 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def dot_S200000x256_S256x2_S200000x2_1_0_0_1_n_n : DotDims S200000x256 S256x2 S200000x2 where
  lhsContracting := [1]
  rhsContracting := [0]
  lhsNonContracting := [0]
  rhsNonContracting := [1]
  lhsBatch := []
  rhsBatch := []
  wf := dot_S200000x256_S256x2_S200000x2_1_0_0_1_n_n_wf

class Facts : Prop extends Facts₀ where

variable [Facts]
-- ==== Proof.KernelRun.lean ====
/-
  The idealized kernel's run with its final memory kept.

  The program is five pipelined regions among stretches of host operations. Run from any memory with zero counters,
  every weakly fair execution terminates without a fault, and every buffer outside the regions' scratch ends at the
  last boundary's contents: the fold of the stretches and of the regions' write-backs over the launch memory. Below,
  that fact is stated for an arbitrary consequence Q of "the final memory is that fold", so that the two result
  buffers can be read off it beside the arguments.
-/
import proofs.«167240_j41695542509880_1_alg».proof.Proof.Gen.KernelIdeal.Frame

set_option maxRecDepth 16384

noncomputable section

namespace Cert.KernelIdeal.Final

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Whatever follows from "every unscoped buffer of every core ends at the last boundary's contents" holds after
    every weakly fair execution of the program: the segments' chain launched from the initial memory, the last
    thread state read against the final physical state. -/
theorem run_final {Q : PUnit × MemSt nD τ sig (Elt F) → Prop}
    (hQ : ∀ s : MemSt nD τ sig (Elt F),
      (∀ c : Dev nD, ∀ b ∈ Pipeline.ucRefs τ sig, s.mem (((c : Thread nD τ)).1, b) = W10 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := hQ)

/-- The run with the two results named: the node table and the pair logits end at the last boundary's contents of
    their buffers, and every argument array ends as launched. -/
theorem run_results : θ_run defs (onTc (τ := τ) (main (F := F))) ⟨m, fun _ => 0, ρ⟩ (fun r => ∀ c : Dev nD,
      r.2.mem ((c.tc : Thread nD τ).loc main_v177) = W10 m ρ c (Proc.devRef .tc main_v177)
      ∧ r.2.mem ((c.tc : Thread nD τ).loc main_v194) = W10 m ρ c (Proc.devRef .tc main_v194)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  run_final m ρ (fun s h c =>
      ⟨h c _ (mem_uc main_v177 (by decide)),
       h c _ (mem_uc main_v194 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c)⟩)

end Cert.KernelIdeal.Final

end
-- ==== Proof.GraphConv.lean ====
/-
  The two-relation graph convolution both programs compute, as functions of arrays.

  An edge list (src, dst) over 100000 nodes gives every node its out-degree and in-degree (a scatter-add of ones);
  an edge's weight is rsqrt(max(outdeg(src), 1)) · rsqrt(max(indeg(dst), 1)); `aggregate p src dst` sends row
  src of `p`, times the edge's weight, to row dst and sums what arrives there. One layer applies this, for each of
  the two relations, to the node features times that relation's weight matrix, adds the relation's bias to every
  row, averages the two relations and clamps at zero. The pair classifier reads two rows of the node table per
  query pair, lays them side by side and applies one affine map.

  The gathers and scatter-adds are never opened here: both programs apply the same ones to arrays that are shown
  equal. What is opened is the dense part, stated below index by index over the extended reals: a matrix product
  as a sum over the shared axis, the bias-average-clamp combination, and the affine classifier.
-/
import proofs.«167240_j41695542509880_1_alg».proof.Proof.Gen.ReferenceIdeal
import Idealize.ShloMosaic.PureOps.Ideal
import Idealize.ShloMosaic.Lib.ValueIdx

set_option maxRecDepth 8192

noncomputable section

namespace Cert.GraphConv

open Idealize.ShloMosaic Idealize.ShloMosaic.ValueIdx Cert.ReferenceIdeal
open Cert.ReferenceIdeal.Facts₀ Cert.ReferenceIdeal.Facts

section AnyFloat
variable {F : FTy → Type} [FloatOps F]

/-- A node index of an edge list as jnp reads it: a negative index counts from the end. -/
def wrapEdge (s : (⟨S1600000, .i32⟩ : BufTy).Contents (Elt F)) : (⟨S1600000, .i32⟩ : BufTy).Contents (Elt F) :=
  select (cmpi .slt s (broadcastInDim S1600000 ![] bcast_S_S1600000 (constantI S_ 32 0#32))) (addi s (broadcastInDim S1600000 ![] bcast_S_S1600000 (constantI S_ 32 100000#32))) s

/-- 1 / sqrt(max(degree, 1)) per node, the degree counted over one end of the edge list. -/
def invSqrtDeg (s : (⟨S1600000, .i32⟩ : BufTy).Contents (Elt F)) : (⟨S100000, .f32⟩ : BufTy).Contents (Elt F) :=
  Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 s) (broadcastInDim S1600000 ![] bcast_S_S1600000 (constant S_ .f32 0x3F800000#32))) (broadcastInDim S100000 ![] bcast_S_S100000 (constant S_ .f32 0x3F800000#32)))

/-- An edge's weight: the source's factor by out-degree times the destination's by in-degree. -/
def edgeWeight (s d : (⟨S1600000, .i32⟩ : BufTy).Contents (Elt F)) : (⟨S1600000, .f32⟩ : BufTy).Contents (Elt F) :=
  mulf (Host.gather gather_S100000_S1600000x1_S1600000_n_0_n_n_0_1_1 (invSqrtDeg s) (broadcastInDim S1600000x1 ![0] bcast_S1600000_S1600000x1_0 (wrapEdge s))) (Host.gather gather_S100000_S1600000x1_S1600000_n_0_n_n_0_1_1 (invSqrtDeg d) (broadcastInDim S1600000x1 ![0] bcast_S1600000_S1600000x1_0 (wrapEdge d)))

/-- Row `src` of `p` times the edge's weight, summed into row `dst`, over all edges. -/
def aggregate (p : (⟨S100000x128, .f32⟩ : BufTy).Contents (Elt F)) (s d : (⟨S1600000, .i32⟩ : BufTy).Contents (Elt F)) : (⟨S100000x128, .f32⟩ : BufTy).Contents (Elt F) :=
  Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 d) (mulf (Host.gather gather_S100000x128_S1600000x1_S1600000x128_1_0_n_n_0_1_1128 p (broadcastInDim S1600000x1 ![0] bcast_S1600000_S1600000x1_0 (wrapEdge s))) (broadcastInDim S1600000x128 ![0, 1] bcast_S1600000x1_S1600000x128_0_1 (broadcastInDim S1600000x1 ![0] bcast_S1600000_S1600000x1_0 (edgeWeight s d))))

/-- A bias vector added to every row. -/
def rowBias (b : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 b)

/-- One layer: relu(½ · ((aggregate(h·Wp) + bp) + (aggregate(h·Ws) + bs))). -/
def layer (h : (⟨S100000x128, .f32⟩ : BufTy).Contents (Elt F)) (Wp : (⟨S128x128, .f32⟩ : BufTy).Contents (Elt F)) (bp : (⟨S128, .f32⟩ : BufTy).Contents (Elt F)) (Ws : (⟨S128x128, .f32⟩ : BufTy).Contents (Elt F)) (bs : (⟨S128, .f32⟩ : BufTy).Contents (Elt F))
    (s1 d1 s2 d2 : (⟨S1600000, .i32⟩ : BufTy).Contents (Elt F)) : (⟨S100000x128, .f32⟩ : BufTy).Contents (Elt F) :=
  maximumf (mulf (broadcastInDim S100000x128 ![] bcast_S_S100000x128 (constant S_ .f32 0x3F000000#32)) (addf (addf (aggregate (Host.dotGeneral dot_S100000x128_S128x128_S100000x128_1_0_0_1_n_n none h Wp) s1 d1) (rowBias bp)) (addf (aggregate (Host.dotGeneral dot_S100000x128_S128x128_S100000x128_1_0_0_1_n_n none h Ws) s2 d2) (rowBias bs)))) (broadcastInDim S100000x128 ![] bcast_S_S100000x128 (constant S_ .f32 0x00000000#32))

/-- A node index of a query pair as jnp reads it. -/
def wrapPair (p : (⟨S200000, .i32⟩ : BufTy).Contents (Elt F)) : (⟨S200000, .i32⟩ : BufTy).Contents (Elt F) :=
  select (cmpi .slt p (broadcastInDim S200000 ![] bcast_S_S200000 (constantI S_ 32 0#32))) (addi p (broadcastInDim S200000 ![] bcast_S_S200000 (constantI S_ 32 100000#32))) p

/-- The two endpoints' rows of the node table side by side, per query pair. -/
def pairRows (z : (⟨S100000x128, .f32⟩ : BufTy).Contents (Elt F)) (p q : (⟨S200000, .i32⟩ : BufTy).Contents (Elt F)) : (⟨S200000x256, .f32⟩ : BufTy).Contents (Elt F) :=
  concatenate S200000x256 1 [⟨S200000x128, (Host.gather gather_S100000x128_S200000x1_S200000x128_1_0_n_n_0_1_1128 z (broadcastInDim S200000x1 ![0] bcast_S200000_S200000x1_0 (wrapPair p)))⟩, ⟨S200000x128, (Host.gather gather_S100000x128_S200000x1_S200000x128_1_0_n_n_0_1_1128 z (broadcastInDim S200000x1 ![0] bcast_S200000_S200000x1_0 (wrapPair q)))⟩] concatenates_S200000x128_S200000x128_S200000x256_d1

/-- The classifier on the pair rows: rows · Wc + bc. -/
def logits (z : (⟨S100000x128, .f32⟩ : BufTy).Contents (Elt F)) (p q : (⟨S200000, .i32⟩ : BufTy).Contents (Elt F)) (Wc : (⟨S256x2, .f32⟩ : BufTy).Contents (Elt F)) (bc : (⟨S2, .f32⟩ : BufTy).Contents (Elt F)) : (⟨S200000x2, .f32⟩ : BufTy).Contents (Elt F) :=
  addf (Host.dotGeneral dot_S200000x256_S256x2_S200000x2_1_0_0_1_n_n none (pairRows z p q) Wc) (broadcastInDim S200000x2 ![0, 1] bcast_S1x2_S200000x2_0_1 (broadcastInDim S1x2 ![1] bcast_S2_S1x2_1 bc))

end AnyFloat

/-! ## The dense pieces, index by index over the extended reals -/

/-- x · w: entry (r, j) is the sum over k of x (r, k) · w (k, j). -/
def matProd (x : FVec Ideal ⟨2, ![100000, 128]⟩ .f32) (w : FVec Ideal ⟨2, ![128, 256]⟩ .f32) : FVec Ideal ⟨2, ![100000, 256]⟩ .f32 :=
  fun i => ∑ k : Fin 128, x (ix2 (i 0) k) * w (ix2 k (i 1))

/-- max(½ · ((a + p) + (b + q)), 0), the one-row arrays p and q added to every row. -/
def combine (a b : FVec Ideal ⟨2, ![100000, 128]⟩ .f32) (p q : FVec Ideal ⟨2, ![1, 128]⟩ .f32) : FVec Ideal ⟨2, ![100000, 128]⟩ .f32 :=
  fun i => max (Ideal.ofBits .f32 0x3F000000#32 * ((a i + p (ix2 0 (i 1))) + (b i + q (ix2 0 (i 1))))) (Ideal.ofBits .f32 0x00000000#32)

/-- x · w + b: entry (r, j) is the sum over k of x (r, k) · w (k, j), plus b (0, j). -/
def classify (x : FVec Ideal ⟨2, ![200000, 256]⟩ .f32) (w : FVec Ideal ⟨2, ![256, 2]⟩ .f32) (b : FVec Ideal ⟨2, ![1, 2]⟩ .f32) : FVec Ideal ⟨2, ![200000, 2]⟩ .f32 :=
  fun i => (∑ k : Fin 256, x (ix2 (i 0) k) * w (ix2 k (i 1))) + b (ix2 0 (i 1))

end Cert.GraphConv

end
-- ==== Proof.HostStretches.lean ====
/-
  The host operations between the regions, read at the buffers the regions stage.

  Each stretch is a straight line of tensor operations; from any contents W of the buffers it leaves every buffer
  it writes at that operation's function of its operands, and every other buffer as it was. Read at the buffers the
  next region takes: the two weight matrices side by side; for each relation the aggregation of one half of the
  projection's columns over that relation's edge list; the bias vectors as one-row arrays; the pair rows of the
  node table. No stretch writes an argument of the program: the arguments are the first seventeen buffers of the
  signature and every operation writes a later one.
-/
import proofs.«167240_j41695542509880_1_alg».proof.Proof.Gen.KernelIdeal.Launch
import proofs.«167240_j41695542509880_1_alg».proof.Proof.GraphConv
import Idealize.ShloMosaic.Lib.StableHlo.Run

set_option maxRecDepth 16384

noncomputable section

namespace Cert.KernelIdeal.Stretch

open Cert.KernelIdeal Cert.KernelIdeal.Gen Idealize.ShloMosaic Idealize.ShloMosaic.TcCoe Idealize.SL.Sem Idealize.ShloMosaic.StableHlo

variable {F : FTy → Type} [FloatOps F]
variable (W : Valuation τ sig (Elt F))

/-- An argument (one of the first seventeen buffers) is not a later buffer. -/
theorem arg_ne {b y : Ref sig .tc} (hb : b.idx.val < 17) (hy : 17 ≤ y.idx.val) :
    (Proc.devRef (τ := τ) .tc b) ≠ Proc.devRef .tc y :=
  devRef_ne_of_ne (fun e => by subst e; omega)

/-- Stretch 0 writes no argument. -/
theorem keep0 (b : Ref sig .tc) (hb : b.idx.val < 17) : after hostOps0 W (Proc.devRef .tc b) = W (Proc.devRef .tc b) :=
  after_of_forall_not_mem (b := Proc.devRef .tc b) _ _ (List.forall_iff_forall_mem.mp (by
    simp only [hostOps0, List.Forall, nullary_writes, unary_writes, binary_writes, ternary_writes, quaternary_writes, reshape_writes, binaryIndexed_writes, Finset.mem_singleton]
    repeat' apply And.intro
    all_goals exact arg_ne hb (by decide)))

/-- Stretch 1 writes no argument. -/
theorem keep1 (b : Ref sig .tc) (hb : b.idx.val < 17) : after hostOps1 W (Proc.devRef .tc b) = W (Proc.devRef .tc b) :=
  after_of_forall_not_mem (b := Proc.devRef .tc b) _ _ (List.forall_iff_forall_mem.mp (by
    simp only [hostOps1, List.Forall, nullary_writes, unary_writes, binary_writes, ternary_writes, quaternary_writes, reshape_writes, binaryIndexed_writes, Finset.mem_singleton]
    repeat' apply And.intro
    all_goals exact arg_ne hb (by decide)))

/-- Stretch 2 writes no argument. -/
theorem keep2 (b : Ref sig .tc) (hb : b.idx.val < 17) : after hostOps2 W (Proc.devRef .tc b) = W (Proc.devRef .tc b) :=
  after_of_forall_not_mem (b := Proc.devRef .tc b) _ _ (List.forall_iff_forall_mem.mp (by
    simp only [hostOps2, List.Forall, nullary_writes, unary_writes, binary_writes, ternary_writes, quaternary_writes, reshape_writes, binaryIndexed_writes, Finset.mem_singleton]
    repeat' apply And.intro
    all_goals exact arg_ne hb (by decide)))

/-- Stretch 3 writes no argument. -/
theorem keep3 (b : Ref sig .tc) (hb : b.idx.val < 17) : after hostOps3 W (Proc.devRef .tc b) = W (Proc.devRef .tc b) :=
  after_of_forall_not_mem (b := Proc.devRef .tc b) _ _ (List.forall_iff_forall_mem.mp (by
    simp only [hostOps3, List.Forall, nullary_writes, unary_writes, binary_writes, ternary_writes, quaternary_writes, reshape_writes, binaryIndexed_writes, Finset.mem_singleton]
    repeat' apply And.intro
    all_goals exact arg_ne hb (by decide)))

/-- Stretch 4 writes no argument. -/
theorem keep4 (b : Ref sig .tc) (hb : b.idx.val < 17) : after hostOps4 W (Proc.devRef .tc b) = W (Proc.devRef .tc b) :=
  after_of_forall_not_mem (b := Proc.devRef .tc b) _ _ (List.forall_iff_forall_mem.mp (by
    simp only [hostOps4, List.Forall, nullary_writes, unary_writes, binary_writes, ternary_writes, quaternary_writes, reshape_writes, binaryIndexed_writes, Finset.mem_singleton]
    repeat' apply And.intro
    all_goals exact arg_ne hb (by decide)))

/-- Stretch 2 leaves the first layer's node table alone. -/
theorem keep2_h1 : after hostOps2 W (Proc.devRef .tc main_v88) = W (Proc.devRef .tc main_v88) := by
  after_results_simp

/-- Stretch 4 leaves the final node table alone. -/
theorem keep4_z : after hostOps4 W (Proc.devRef .tc main_v177) = W (Proc.devRef .tc main_v177) := by
  after_results_simp

/-- Stretch 0: the first layer's two weight matrices side by side. -/
theorem weights0 : after hostOps0 W (Proc.devRef .tc main_v0)
    = concatenate S128x256 1 [⟨S128x128, W (Proc.devRef .tc main_arg7)⟩, ⟨S128x128, W (Proc.devRef .tc main_arg9)⟩] concatenates_S128x128_S128x128_S128x256_d1 := by
  after_results_simp

/-- Stretch 2: the second layer's two weight matrices side by side. -/
theorem weights1 : after hostOps2 W (Proc.devRef .tc main_v89)
    = concatenate S128x256 1 [⟨S128x128, W (Proc.devRef .tc main_arg11)⟩, ⟨S128x128, W (Proc.devRef .tc main_arg13)⟩] concatenates_S128x128_S128x128_S128x256_d1 := by
  after_results_simp

set_option maxHeartbeats 40000000 in
/-- Stretch 1, at the four buffers region 1 stages: each relation's aggregation of its half of the first projection's columns over its edge list, and the two biases as one-row arrays. -/
theorem layer0_inputs :
    after hostOps1 W (Proc.devRef .tc main_v44)
      = Cert.GraphConv.aggregate (extractStridedSlice S100000x128 ![0, 0] (W (Proc.devRef .tc main_v1)) slices_S100000x256_S100000x128_0_0)
          (W (Proc.devRef .tc main_arg1)) (W (Proc.devRef .tc main_arg2))
    ∧ after hostOps1 W (Proc.devRef .tc main_v85)
      = Cert.GraphConv.aggregate (extractStridedSlice S100000x128 ![0, 128] (W (Proc.devRef .tc main_v1)) slices_S100000x256_S100000x128_0_128)
          (W (Proc.devRef .tc main_arg3)) (W (Proc.devRef .tc main_arg4))
    ∧ after hostOps1 W (Proc.devRef .tc main_v86) = shapeCast S1x128 (W (Proc.devRef .tc main_arg8)) shapeCasts_S128_S1x128
    ∧ after hostOps1 W (Proc.devRef .tc main_v87) = shapeCast S1x128 (W (Proc.devRef .tc main_arg10)) shapeCasts_S128_S1x128 := by
  after_results_simp
  exact ⟨rfl, rfl, rfl, rfl⟩

set_option maxHeartbeats 40000000 in
/-- Stretch 3, at the four buffers region 3 stages: the same for the second layer. -/
theorem layer1_inputs :
    after hostOps3 W (Proc.devRef .tc main_v133)
      = Cert.GraphConv.aggregate (extractStridedSlice S100000x128 ![0, 0] (W (Proc.devRef .tc main_v90)) slices_S100000x256_S100000x128_0_0)
          (W (Proc.devRef .tc main_arg1)) (W (Proc.devRef .tc main_arg2))
    ∧ after hostOps3 W (Proc.devRef .tc main_v174)
      = Cert.GraphConv.aggregate (extractStridedSlice S100000x128 ![0, 128] (W (Proc.devRef .tc main_v90)) slices_S100000x256_S100000x128_0_128)
          (W (Proc.devRef .tc main_arg3)) (W (Proc.devRef .tc main_arg4))
    ∧ after hostOps3 W (Proc.devRef .tc main_v175) = shapeCast S1x128 (W (Proc.devRef .tc main_arg12)) shapeCasts_S128_S1x128
    ∧ after hostOps3 W (Proc.devRef .tc main_v176) = shapeCast S1x128 (W (Proc.devRef .tc main_arg14)) shapeCasts_S128_S1x128 := by
  after_results_simp
  exact ⟨rfl, rfl, rfl, rfl⟩

set_option maxHeartbeats 4000000 in
/-- Stretch 4: the query pairs' two rows of the node table side by side. -/
theorem pairs : after hostOps4 W (Proc.devRef .tc main_v192)
    = Cert.GraphConv.pairRows (W (Proc.devRef .tc main_v177)) (W (Proc.devRef .tc main_arg5)) (W (Proc.devRef .tc main_arg6)) := by
  after_results_simp
  rfl

/-- Stretch 4: the classifier's bias as a one-row array. -/
theorem biasC : after hostOps4 W (Proc.devRef .tc main_v193) = shapeCast S1x2 (W (Proc.devRef .tc main_arg16)) shapeCasts_S2_S1x2 := by
  after_results_simp
  rfl

end Cert.KernelIdeal.Stretch

end
-- ==== Proof.KernelForm.lean ====
/-
  One layer, and the classifier, in the arrangement the kernel computes them in.

  The kernel multiplies the node table once by the two relations' weight matrices laid side by side and takes the
  left and the right half of the product's columns as the two relations' projections; it aggregates each over its
  edge list as the reference does; it lays each bias vector as a one-row array and combines — add the bias to every
  row, average the two relations, clamp at zero — in one pass. The classifier multiplies the pair rows by its
  weights and adds its bias row. The dense pieces are GraphConv's index-by-index functions.
-/
import proofs.«167240_j41695542509880_1_alg».proof.Proof.GraphConv
import proofs.«167240_j41695542509880_1_alg».proof.Proof.Gen.KernelIdeal

set_option maxRecDepth 8192

noncomputable section

namespace Cert.GraphConv

open Idealize.ShloMosaic Cert.KernelIdeal
open Cert.KernelIdeal.Facts₀ Cert.KernelIdeal.Facts

/-- Two 128-column weight matrices side by side. -/
def sideBySide (Wp Ws : (⟨S128x128, .f32⟩ : BufTy).Contents (Elt Ideal)) : (⟨S128x256, .f32⟩ : BufTy).Contents (Elt Ideal) :=
  concatenate S128x256 1 [⟨S128x128, Wp⟩, ⟨S128x128, Ws⟩] concatenates_S128x128_S128x128_S128x256_d1

/-- The left 128 columns of a 256-column table. -/
def leftHalf (p : (⟨S100000x256, .f32⟩ : BufTy).Contents (Elt Ideal)) : (⟨S100000x128, .f32⟩ : BufTy).Contents (Elt Ideal) :=
  extractStridedSlice S100000x128 ![0, 0] p slices_S100000x256_S100000x128_0_0

/-- The right 128 columns of a 256-column table. -/
def rightHalf (p : (⟨S100000x256, .f32⟩ : BufTy).Contents (Elt Ideal)) : (⟨S100000x128, .f32⟩ : BufTy).Contents (Elt Ideal) :=
  extractStridedSlice S100000x128 ![0, 128] p slices_S100000x256_S100000x128_0_128

/-- A bias vector as a one-row array. -/
def oneRow (b : (⟨S128, .f32⟩ : BufTy).Contents (Elt Ideal)) : (⟨S1x128, .f32⟩ : BufTy).Contents (Elt Ideal) :=
  shapeCast S1x128 b shapeCasts_S128_S1x128

/-- One layer as the kernel computes it. -/
def layerK (h : (⟨S100000x128, .f32⟩ : BufTy).Contents (Elt Ideal)) (Wp : (⟨S128x128, .f32⟩ : BufTy).Contents (Elt Ideal)) (bp : (⟨S128, .f32⟩ : BufTy).Contents (Elt Ideal)) (Ws : (⟨S128x128, .f32⟩ : BufTy).Contents (Elt Ideal)) (bs : (⟨S128, .f32⟩ : BufTy).Contents (Elt Ideal))
    (s1 d1 s2 d2 : (⟨S1600000, .i32⟩ : BufTy).Contents (Elt Ideal)) : (⟨S100000x128, .f32⟩ : BufTy).Contents (Elt Ideal) :=
  combine (aggregate (F := Ideal) (leftHalf (matProd h (sideBySide Wp Ws))) s1 d1)
    (aggregate (F := Ideal) (rightHalf (matProd h (sideBySide Wp Ws))) s2 d2) (oneRow bp) (oneRow bs)

/-- The pair logits as the kernel computes them. -/
def logitsK (z : (⟨S100000x128, .f32⟩ : BufTy).Contents (Elt Ideal)) (p q : (⟨S200000, .i32⟩ : BufTy).Contents (Elt Ideal)) (Wc : (⟨S256x2, .f32⟩ : BufTy).Contents (Elt Ideal)) (bc : (⟨S2, .f32⟩ : BufTy).Contents (Elt Ideal)) : (⟨S200000x2, .f32⟩ : BufTy).Contents (Elt Ideal) :=
  classify (pairRows (F := Ideal) z p q) Wc (shapeCast S1x2 bc shapeCasts_S2_S1x2)

end Cert.GraphConv

end
-- ==== Proof.LibPlainMatmul.lean ====
/-
  A plain matrix product read at an index. For dimension numbers that contract the left operand's columns with the
  right operand's rows and have no batch axis, the product of an [M, K] by a [K, N] array into a zero accumulator,
  read at (p, q) over the extended reals, is the textbook sum over k of lhs (p, k) · rhs (k, q).
-/
import Idealize.ShloMosaic.PureOps.Ideal.Laws
import Idealize.ShloMosaic.Lib.ValueIdx

noncomputable section

namespace Idealize.ShloMosaic.PlainMatmul

open Idealize.ShloMosaic Idealize.ShloMosaic.ValueIdx

variable {M K N : Nat}

private theorem val_congr {n : Nat} {α : Fin n → Type} (f : (i : Fin n) → α i) (g : ∀ i, α i → Nat)
    (x y : Nat) (hx : x < n) (hy : y < n) (h : x = y) : g ⟨x, hx⟩ (f ⟨x, hx⟩) = g ⟨y, hy⟩ (f ⟨y, hy⟩) := by
  subst h; rfl

/-- The left operand's row coordinate is the output's row coordinate. -/
theorem lhsIdx_row (d : DotDims ⟨2, ![M, K]⟩ ⟨2, ![K, N]⟩ ⟨2, ![M, N]⟩)
    (hln : d.lhsNonContracting = [0]) (hlb : d.lhsBatch = [])
    (j : (⟨2, ![M, N]⟩ : Shape).Idx) (κ : d.contr.Idx) :
    (d.lhsIdx j κ (0 : Fin (⟨2, ![M, K]⟩ : Shape).rank)).val = (j (0 : Fin (⟨2, ![M, N]⟩ : Shape).rank)).val := by
  unfold DotDims.lhsIdx
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  rw [dif_neg hb, dif_pos hn]
  simp only [Fin.val_cast]
  exact val_congr j (fun _ v => v.val) _ 0 _ Nat.zero_lt_two (by simp [hlb, hln])

/-- The right operand's column coordinate is the output's column coordinate. -/
theorem rhsIdx_col (d : DotDims ⟨2, ![M, K]⟩ ⟨2, ![K, N]⟩ ⟨2, ![M, N]⟩)
    (hrn : d.rhsNonContracting = [1]) (hrb : d.rhsBatch = []) (hlb : d.lhsBatch = []) (hln : d.lhsNonContracting = [0])
    (j : (⟨2, ![M, N]⟩ : Shape).Idx) (κ : d.contr.Idx) :
    (d.rhsIdx j κ (1 : Fin (⟨2, ![K, N]⟩ : Shape).rank)).val = (j (1 : Fin (⟨2, ![M, N]⟩ : Shape).rank)).val := by
  unfold DotDims.rhsIdx
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  rw [dif_neg hb, dif_pos hn]
  simp only [Fin.val_cast]
  exact val_congr j (fun _ v => v.val) _ 1 _ Nat.one_lt_two (by simp [hlb, hln, hrn])

/-- The left operand's index at output (p, q) and contraction position k is (p, k). -/
theorem lhsIdx_plain (d : DotDims ⟨2, ![M, K]⟩ ⟨2, ![K, N]⟩ ⟨2, ![M, N]⟩)
    (hlc : d.lhsContracting = [1]) (hln : d.lhsNonContracting = [0]) (hlb : d.lhsBatch = [])
    (hr : d.contr.rank = 1) (hs : d.contr.size ⟨0, by omega⟩ = K) (p : Fin M) (q : Fin N) (k : Fin K) :
    d.lhsIdx (ix2 p q) ((contrEquiv1 d K hr hs).symm k) = ix2 p k := by
  funext a
  apply Fin.ext
  match a with
  | ⟨0, _⟩ => exact lhsIdx_row d hln hlb (ix2 p q) _
  | ⟨1, _⟩ =>
    exact (d.lhsIdx_val_of_single (cl := (1 : Fin (⟨2, ![M, K]⟩ : Shape).rank)) hlc _ _).trans (contrEquiv1_symm_val d K hr hs k)

/-- The right operand's index at output (p, q) and contraction position k is (k, q). -/
theorem rhsIdx_plain (d : DotDims ⟨2, ![M, K]⟩ ⟨2, ![K, N]⟩ ⟨2, ![M, N]⟩)
    (hrc : d.rhsContracting = [0]) (hrn : d.rhsNonContracting = [1]) (hrb : d.rhsBatch = [])
    (hlb : d.lhsBatch = []) (hln : d.lhsNonContracting = [0])
    (hr : d.contr.rank = 1) (hs : d.contr.size ⟨0, by omega⟩ = K) (p : Fin M) (q : Fin N) (k : Fin K) :
    d.rhsIdx (ix2 p q) ((contrEquiv1 d K hr hs).symm k) = ix2 k q := by
  funext a
  apply Fin.ext
  match a with
  | ⟨0, _⟩ =>
    exact (d.rhsIdx_val_of_single (cr := (0 : Fin (⟨2, ![K, N]⟩ : Shape).rank)) hrc _ _).trans (contrEquiv1_symm_val d K hr hs k)
  | ⟨1, _⟩ => exact rhsIdx_col d hrn hrb hlb hln (ix2 p q) _

/-- The product into a zero accumulator at (p, q) is the sum over k of lhs (p, k) · rhs (k, q). -/
theorem matmul_zero_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  rw [lhsIdx_plain d hlc hln hlb hr hs p q k, rhsIdx_plain d hrc hrn hrb hlb hln hr hs p q k]

end Idealize.ShloMosaic.PlainMatmul

end
-- ==== Proof.ProjRegion.lean ====
/-
  The projection regions of the graph convolution: each multiplies a 2000-row block of the node table by the whole
  128 x 256 weight matrix, block after block down the table, so that the array the blocks are written back to ends
  holding the full matrix product, entry (r, j) being the sum over k of x (r, k) * w (k, j).
-/
import proofs.«167240_j41695542509880_1_alg».proof.Proof.Gen.KernelIdeal.Frame
import proofs.«167240_j41695542509880_1_alg».proof.Proof.GraphConv
import proofs.«167240_j41695542509880_1_alg».proof.Proof.LibPlainMatmul
import Idealize.ShloMosaic.Lib.Pipeline.Value
import Idealize.ShloMosaic.Lib.ValueIdx
import Idealize.ShloMosaic.Lib.ValueLayout

set_option maxRecDepth 16384

noncomputable section

namespace Cert.KernelIdeal.Dense

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access, as a constant function. -/
theorem proj_zero_offsets : (![0, 0] : Fin 2 → Nat) = fun _ => 0 := funext fun a => by fin_cases a <;> rfl

/-! ## The first projection -/

/-- What one grid point of the first projection computes, at row p and column q of its block: the sum over k of
    x (p, k) * w (k, q). Rounding the operands is the identity over the extended reals, and the product accumulates
    into zero. -/
theorem proj0_payload (x0 : Vec Ideal S2000x128 .f32) (x1 : Vec Ideal S128x256 .f32) (p : Fin 2000) (q : Fin 256) :
    k0_pay1 x0 x1 (ix2 p q) = ∑ k : Fin 128, x0 (ix2 p k) * x1 (ix2 k q) := by
  unfold k0_pay1
  rw [shapeCast_self]
  exact PlainMatmul.matmul_zero_apply dot_S2000x128_S128x256_S2000x256_1_0_0_1_n_n rfl rfl rfl rfl rfl rfl rfl rfl none _ _ p q

/-- The block index maps over the grid: the left operand's and the output's row blocks move with the grid point,
    and every other block index is zero. -/
theorem proj0_index_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Entry (p, k) of the left operand's block at grid point t is entry (2000 t + p, k) of the node table. -/
theorem proj0_left_read (c : Dev nD) (t : Fin cfg0.N) (p : Fin 2000) (k : Fin 128) (r : Fin 100000)
    (hr : r.val = t.val * 2000 + p.val) :
    iblk0 V c 0 t (ix2 p k) = V c main_arg0 (ix2 r k) := by
  obtain ⟨e0, e1, -, -, -, -⟩ := proj0_index_facts t
  unfold iblk0
  rw [View.read_apply]
  show V c main_arg0 _ = V c main_arg0 _
  refine congrArg (V c main_arg0) (funext fun a => Fin.ext ?_)
  match a with
  | ⟨0, _⟩ => show win0_0.index t (0 : Fin 2) * 2000 + 1 * p.val = r.val; omega
  | ⟨1, _⟩ => show win0_0.index t (1 : Fin 2) * 128 + 1 * k.val = k.val; omega

/-- The right operand's block at every grid point is the whole weight matrix. -/
theorem proj0_right_read (c : Dev nD) (t : Fin cfg0.N) (k : Fin 128) (q : Fin 256) :
    iblk0 V c 1 t (ix2 k q) = V c main_v0 (ix2 k q) := by
  obtain ⟨-, -, e2, e3, -, -⟩ := proj0_index_facts t
  unfold iblk0
  rw [View.read_apply]
  show V c main_v0 _ = V c main_v0 _
  refine congrArg (V c main_v0) (funext fun a => Fin.ext ?_)
  match a with
  | ⟨0, _⟩ => show win0_1.index t (0 : Fin 2) * 128 + 1 * k.val = k.val; omega
  | ⟨1, _⟩ => show win0_1.index t (1 : Fin 2) * 256 + 1 * q.val = q.val; omega

/-- Entry (p, q) of the output's block at grid point t sits at (2000 t + p, q) in the output array. -/
theorem proj0_out_emb (t : Fin cfg0.N) (p : Fin 2000) (q : Fin 256) (r : Fin 100000)
    (hr : r.val = t.val * 2000 + p.val) :
    ((cfg0.win 2).blk t).view.emb (ix2 p q) = (ix2 r q : S100000x256.Idx) := by
  obtain ⟨-, -, -, -, e4, e5⟩ := proj0_index_facts t
  refine funext fun a => Fin.ext ?_
  match a with
  | ⟨0, _⟩ => show win0_2.index t (0 : Fin 2) * 2000 + 1 * p.val = r.val; omega
  | ⟨1, _⟩ => show win0_2.index t (1 : Fin 2) * 256 + 1 * q.val = q.val; omega

/-- What grid point t writes back is block t of the matrix product of the two arrays as the region finds them. -/
theorem proj0_flushed (c : Dev nD) (t : Fin cfg0.N) :
    (Gen.dat0 V c).flushed 2 t = ((cfg0.win 2).blk t).view.read (Elt Ideal) (Cert.GraphConv.matProd (V c main_arg0) (V c main_v0)) := by
  show (cfg0.win 2).cut (grid0.coords t) ((Gen.dat0 V c).after 2 t) = _
  rw [Gen.after0_2]
  unfold Gen.out0_2
  rw [View.canon_unit_zero proj_zero_offsets]
  simp only [View.ld_unit_zero (S := S2000x128) proj_zero_offsets, View.ld_unit_zero (S := S128x256) proj_zero_offsets]
  funext j
  obtain ⟨p, q, rfl⟩ : ∃ (p : Fin 2000) (q : Fin 256), j = ix2 p q := ⟨j 0, j 1, eq_ix2 j⟩
  have ht : t.val < 50 := lt_of_lt_of_eq t.isLt N_0
  have hr : t.val * 2000 + p.val < 100000 := by have := p.isLt; omega
  show k0_pay1 (iblk0 V c 0 t) (iblk0 V c 1 t) (ix2 p q) = Cert.GraphConv.matProd (V c main_arg0) (V c main_v0) (((cfg0.win 2).blk t).view.emb (ix2 p q))
  rw [proj0_out_emb t p q ⟨t.val * 2000 + p.val, hr⟩ rfl, proj0_payload]
  refine Finset.sum_congr rfl fun k _ => ?_
  rw [proj0_left_read V c t p k ⟨t.val * 2000 + p.val, hr⟩ rfl, proj0_right_read V c t k q]

/-- An index of the output array lies in grid point t's block exactly when each coordinate is in the block's range. -/
theorem proj0_mem_block (t : Fin cfg0.N) (i : S100000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v1).slice (win0_2.rect t)).set ↔ _
  rw [View.set_slice_whole, Rect.mem_set_unit]
  exact Iff.rfl

/-- Row r of the output array is written by grid point r / 2000. -/
theorem proj0_cover (i : S100000x256.Idx) :
    ∃ t : Fin cfg0.N, (cfg0.win 2).flush t = true ∧ i ∈ ((cfg0.win 2).blk t).view.set := by
  have h0 : (i 0).val < 100000 := (i 0).isLt
  have h1 : (i 1).val < 256 := (i 1).isLt
  have hN : cfg0.N = 50 := N_0
  refine ⟨⟨(i 0).val / 2000, by omega⟩, flush0_2 _, ?_⟩
  obtain ⟨-, -, -, -, e4, e5⟩ := proj0_index_facts ⟨(i 0).val / 2000, by omega⟩
  rw [proj0_mem_block]
  intro a
  match a with
  | ⟨0, _⟩ =>
    show win0_2.index _ (0 : Fin 2) * 2000 ≤ (i 0).val ∧ (i 0).val < win0_2.index _ (0 : Fin 2) * 2000 + 2000
    rw [e4]; show (i 0).val / 2000 * 2000 ≤ (i 0).val ∧ (i 0).val < (i 0).val / 2000 * 2000 + 2000; omega
  | ⟨1, _⟩ =>
    show win0_2.index _ (1 : Fin 2) * 256 ≤ (i 1).val ∧ (i 1).val < win0_2.index _ (1 : Fin 2) * 256 + 256
    rw [e5]; omega

/-- After the region the output array holds the whole matrix product. -/
theorem proj0_final (c : Dev nD) : (Gen.dat0 V c).arrAt 2 cfg0.N = Cert.GraphConv.matProd (V c main_arg0) (V c main_v0) :=
  (Gen.dat0 V c).arrAt_eq_of_cover 2 (Cert.GraphConv.matProd (V c main_arg0) (V c main_v0)) (fun t _ => proj0_flushed V c t) proj0_cover

/-! ## The second projection -/

/-- What one grid point of the second projection computes, at row p and column q of its block: the sum over k of
    x (p, k) * w (k, q). Rounding the operands is the identity over the extended reals, and the product accumulates
    into zero. -/
theorem proj2_payload (x0 : Vec Ideal S2000x128 .f32) (x1 : Vec Ideal S128x256 .f32) (p : Fin 2000) (q : Fin 256) :
    k2_pay1 x0 x1 (ix2 p q) = ∑ k : Fin 128, x0 (ix2 p k) * x1 (ix2 k q) := by
  unfold k2_pay1
  rw [shapeCast_self, shapeCast_self]
  exact PlainMatmul.matmul_zero_apply dot_S2000x128_S128x256_S2000x256_1_0_0_1_n_n rfl rfl rfl rfl rfl rfl rfl rfl none _ _ p q

/-- The block index maps over the grid: the left operand's and the output's row blocks move with the grid point,
    and every other block index is zero. -/
theorem proj2_index_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- Entry (p, k) of the left operand's block at grid point t is entry (2000 t + p, k) of the node table. -/
theorem proj2_left_read (c : Dev nD) (t : Fin cfg2.N) (p : Fin 2000) (k : Fin 128) (r : Fin 100000)
    (hr : r.val = t.val * 2000 + p.val) :
    iblk2 V c 0 t (ix2 p k) = V c main_v88 (ix2 r k) := by
  obtain ⟨e0, e1, -, -, -, -⟩ := proj2_index_facts t
  unfold iblk2
  rw [View.read_apply]
  show V c main_v88 _ = V c main_v88 _
  refine congrArg (V c main_v88) (funext fun a => Fin.ext ?_)
  match a with
  | ⟨0, _⟩ => show win2_0.index t (0 : Fin 2) * 2000 + 1 * p.val = r.val; omega
  | ⟨1, _⟩ => show win2_0.index t (1 : Fin 2) * 128 + 1 * k.val = k.val; omega

/-- The right operand's block at every grid point is the whole weight matrix. -/
theorem proj2_right_read (c : Dev nD) (t : Fin cfg2.N) (k : Fin 128) (q : Fin 256) :
    iblk2 V c 1 t (ix2 k q) = V c main_v89 (ix2 k q) := by
  obtain ⟨-, -, e2, e3, -, -⟩ := proj2_index_facts t
  unfold iblk2
  rw [View.read_apply]
  show V c main_v89 _ = V c main_v89 _
  refine congrArg (V c main_v89) (funext fun a => Fin.ext ?_)
  match a with
  | ⟨0, _⟩ => show win2_1.index t (0 : Fin 2) * 128 + 1 * k.val = k.val; omega
  | ⟨1, _⟩ => show win2_1.index t (1 : Fin 2) * 256 + 1 * q.val = q.val; omega

/-- Entry (p, q) of the output's block at grid point t sits at (2000 t + p, q) in the output array. -/
theorem proj2_out_emb (t : Fin cfg2.N) (p : Fin 2000) (q : Fin 256) (r : Fin 100000)
    (hr : r.val = t.val * 2000 + p.val) :
    ((cfg2.win 2).blk t).view.emb (ix2 p q) = (ix2 r q : S100000x256.Idx) := by
  obtain ⟨-, -, -, -, e4, e5⟩ := proj2_index_facts t
  refine funext fun a => Fin.ext ?_
  match a with
  | ⟨0, _⟩ => show win2_2.index t (0 : Fin 2) * 2000 + 1 * p.val = r.val; omega
  | ⟨1, _⟩ => show win2_2.index t (1 : Fin 2) * 256 + 1 * q.val = q.val; omega

/-- What grid point t writes back is block t of the matrix product of the two arrays as the region finds them. -/
theorem proj2_flushed (c : Dev nD) (t : Fin cfg2.N) :
    (Gen.dat2 V c).flushed 2 t = ((cfg2.win 2).blk t).view.read (Elt Ideal) (Cert.GraphConv.matProd (V c main_v88) (V c main_v89)) := by
  show (cfg2.win 2).cut (grid2.coords t) ((Gen.dat2 V c).after 2 t) = _
  rw [Gen.after2_2]
  unfold Gen.out2_2
  rw [View.canon_unit_zero proj_zero_offsets]
  simp only [View.ld_unit_zero (S := S2000x128) proj_zero_offsets, View.ld_unit_zero (S := S128x256) proj_zero_offsets]
  funext j
  obtain ⟨p, q, rfl⟩ : ∃ (p : Fin 2000) (q : Fin 256), j = ix2 p q := ⟨j 0, j 1, eq_ix2 j⟩
  have ht : t.val < 50 := lt_of_lt_of_eq t.isLt N_2
  have hr : t.val * 2000 + p.val < 100000 := by have := p.isLt; omega
  show k2_pay1 (iblk2 V c 0 t) (iblk2 V c 1 t) (ix2 p q) = Cert.GraphConv.matProd (V c main_v88) (V c main_v89) (((cfg2.win 2).blk t).view.emb (ix2 p q))
  rw [proj2_out_emb t p q ⟨t.val * 2000 + p.val, hr⟩ rfl, proj2_payload]
  refine Finset.sum_congr rfl fun k _ => ?_
  rw [proj2_left_read V c t p k ⟨t.val * 2000 + p.val, hr⟩ rfl, proj2_right_read V c t k q]

/-- An index of the output array lies in grid point t's block exactly when each coordinate is in the block's range. -/
theorem proj2_mem_block (t : Fin cfg2.N) (i : S100000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole main_v90).slice (win2_2.rect t)).set ↔ _
  rw [View.set_slice_whole, Rect.mem_set_unit]
  exact Iff.rfl

/-- Row r of the output array is written by grid point r / 2000. -/
theorem proj2_cover (i : S100000x256.Idx) :
    ∃ t : Fin cfg2.N, (cfg2.win 2).flush t = true ∧ i ∈ ((cfg2.win 2).blk t).view.set := by
  have h0 : (i 0).val < 100000 := (i 0).isLt
  have h1 : (i 1).val < 256 := (i 1).isLt
  have hN : cfg2.N = 50 := N_2
  refine ⟨⟨(i 0).val / 2000, by omega⟩, flush2_2 _, ?_⟩
  obtain ⟨-, -, -, -, e4, e5⟩ := proj2_index_facts ⟨(i 0).val / 2000, by omega⟩
  rw [proj2_mem_block]
  intro a
  match a with
  | ⟨0, _⟩ =>
    show win2_2.index _ (0 : Fin 2) * 2000 ≤ (i 0).val ∧ (i 0).val < win2_2.index _ (0 : Fin 2) * 2000 + 2000
    rw [e4]; show (i 0).val / 2000 * 2000 ≤ (i 0).val ∧ (i 0).val < (i 0).val / 2000 * 2000 + 2000; omega
  | ⟨1, _⟩ =>
    show win2_2.index _ (1 : Fin 2) * 256 ≤ (i 1).val ∧ (i 1).val < win2_2.index _ (1 : Fin 2) * 256 + 256
    rw [e5]; omega

/-- After the region the output array holds the whole matrix product. -/
theorem proj2_final (c : Dev nD) : (Gen.dat2 V c).arrAt 2 cfg2.N = Cert.GraphConv.matProd (V c main_v88) (V c main_v89) :=
  (Gen.dat2 V c).arrAt_eq_of_cover 2 (Cert.GraphConv.matProd (V c main_v88) (V c main_v89)) (fun t _ => proj2_flushed V c t) proj2_cover

end Cert.KernelIdeal.Dense

end
-- ==== Proof.CombineRegion.lean ====
/-
  The bias-average-clamp region of each layer, read as one function of the arrays it finds.

  The region's grid has 50 points. At point t it reads rows 2000 t … 2000 t + 1999 of two 100000 × 128 node tables
  and, whole, two 1 × 128 bias rows, and writes the same rows of the result: entry (r, j) is
  max(½ · ((a (r, j) + p (0, j)) + (b (r, j) + q (0, j))), 0). The blocks written back are disjoint bands of rows that
  fill the result array, so the array ends holding that expression at every index.
-/
import proofs.«167240_j41695542509880_1_alg».proof.Proof.Gen.KernelIdeal.Frame
import proofs.«167240_j41695542509880_1_alg».proof.Proof.GraphConv
import Idealize.ShloMosaic.Lib.Pipeline.Value
import Idealize.ShloMosaic.Lib.ValueIdx
import Idealize.ShloMosaic.Lib.ValueLayout

set_option maxRecDepth 16384

noncomputable section

namespace Cert.KernelIdeal.Dense

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The first layer's region -/

theorem zeroOffsets1 : (![0, 0] : Fin 2 → Nat) = fun _ => 0 :=
  funext fun a => by match a with | ⟨0, _⟩ => rfl | ⟨1, _⟩ => rfl

/-- One entry of the body's result: both tables' entries, each with its bias row's entry of the same column added,
    summed, halved and clamped below at zero. -/
theorem combinePayload1_apply (a b : Vec Ideal S2000x128 .f32) (p q : Vec Ideal S1x128 .f32) (r : Fin 2000) (j : Fin 128) :
    Gen.k1_pay1 a p b q (ix2 r j)
      = max (Ideal.ofBits .f32 0x3F000000#32 * ((a (ix2 r j) + p (ix2 0 j)) + (b (ix2 r j) + q (ix2 0 j)))) (Ideal.ofBits .f32 0x00000000#32) := by
  unfold Gen.k1_pay1
  show max (Ideal.ofBits .f32 0x3F000000#32 * ((shapeCast S2000x128 a shapeCasts_S2000x128_S2000x128 (ix2 r j) + broadcastTo S2000x128 (shapeCast S1x128 p shapeCasts_S1x128_S1x128) broadcasts_S1x128_S2000x128 (ix2 r j)) + (shapeCast S2000x128 b shapeCasts_S2000x128_S2000x128 (ix2 r j) + broadcastTo S2000x128 (shapeCast S1x128 q shapeCasts_S1x128_S1x128) broadcasts_S1x128_S2000x128 (ix2 r j)))) (Ideal.ofBits .f32 0x00000000#32) = _
  rw [broadcastTo_1b_ab_apply, broadcastTo_1b_ab_apply, shapeCast_self, shapeCast_self, shapeCast_self, shapeCast_self]

/-- The block indices over the grid: at point t both tables' blocks and the result's block are block (t, 0); the two
    bias rows' block is (0, 0) at every point. -/
theorem blockIndex1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry (r, j) of the first table's block at point t is the table's entry (2000 t + r, j). -/
theorem tableA1_read (c : Dev nD) (t : Fin cfg1.N) (r : Fin 2000) (j : Fin 128) (R : Fin 100000)
    (hR : R.val = t.val * 2000 + r.val) :
    Gen.iblk1 V c 0 t (ix2 r j) = (V c main_v44 : S100000x128.Idx → Elt Ideal .f32) (ix2 R j) := by
  obtain ⟨e0, e1, -⟩ := blockIndex1 t
  show (V c main_v44 : S100000x128.Idx → Elt Ideal .f32) (((cfg1.win 0).blk t).view.emb (ix2 r j)) = _
  refine congrArg (V c main_v44 : S100000x128.Idx → Elt Ideal .f32) (funext fun a => Fin.ext ?_)
  match a with
  | ⟨0, _⟩ => show win1_0.index t (0 : Fin 2) * 2000 + 1 * r.val = R.val; rw [e0, hR]; omega
  | ⟨1, _⟩ => show win1_0.index t (1 : Fin 2) * 128 + 1 * j.val = j.val; rw [e1]; omega

/-- The same for the second table. -/
theorem tableB1_read (c : Dev nD) (t : Fin cfg1.N) (r : Fin 2000) (j : Fin 128) (R : Fin 100000)
    (hR : R.val = t.val * 2000 + r.val) :
    Gen.iblk1 V c 1 t (ix2 r j) = (V c main_v85 : S100000x128.Idx → Elt Ideal .f32) (ix2 R j) := by
  obtain ⟨-, -, e0, e1, -⟩ := blockIndex1 t
  show (V c main_v85 : S100000x128.Idx → Elt Ideal .f32) (((cfg1.win 1).blk t).view.emb (ix2 r j)) = _
  refine congrArg (V c main_v85 : S100000x128.Idx → Elt Ideal .f32) (funext fun a => Fin.ext ?_)
  match a with
  | ⟨0, _⟩ => show win1_1.index t (0 : Fin 2) * 2000 + 1 * r.val = R.val; rw [e0, hR]; omega
  | ⟨1, _⟩ => show win1_1.index t (1 : Fin 2) * 128 + 1 * j.val = j.val; rw [e1]; omega

/-- The first bias row's block at any point is the row itself. -/
theorem rowP1_read (c : Dev nD) (t : Fin cfg1.N) (j : Fin 128) :
    Gen.iblk1 V c 2 t (ix2 0 j) = (V c main_v86 : S1x128.Idx → Elt Ideal .f32) (ix2 0 j) := by
  obtain ⟨-, -, -, -, e0, e1, -⟩ := blockIndex1 t
  show (V c main_v86 : S1x128.Idx → Elt Ideal .f32) (((cfg1.win 2).blk t).view.emb (ix2 0 j)) = _
  refine congrArg (V c main_v86 : S1x128.Idx → Elt Ideal .f32) (funext fun a => Fin.ext ?_)
  match a with
  | ⟨0, _⟩ => show win1_2.index t (0 : Fin 2) * 1 + 1 * 0 = 0; rw [e0]
  | ⟨1, _⟩ => show win1_2.index t (1 : Fin 2) * 128 + 1 * j.val = j.val; rw [e1]; omega

/-- The same for the second bias row. -/
theorem rowQ1_read (c : Dev nD) (t : Fin cfg1.N) (j : Fin 128) :
    Gen.iblk1 V c 3 t (ix2 0 j) = (V c main_v87 : S1x128.Idx → Elt Ideal .f32) (ix2 0 j) := by
  obtain ⟨-, -, -, -, -, -, e0, e1, -⟩ := blockIndex1 t
  show (V c main_v87 : S1x128.Idx → Elt Ideal .f32) (((cfg1.win 3).blk t).view.emb (ix2 0 j)) = _
  refine congrArg (V c main_v87 : S1x128.Idx → Elt Ideal .f32) (funext fun a => Fin.ext ?_)
  match a with
  | ⟨0, _⟩ => show win1_3.index t (0 : Fin 2) * 1 + 1 * 0 = 0; rw [e0]
  | ⟨1, _⟩ => show win1_3.index t (1 : Fin 2) * 128 + 1 * j.val = j.val; rw [e1]; omega

/-- What point t writes back is block t of the combination of the four arrays as the region finds them. -/
theorem combine1_flushed (c : Dev nD) (t : Fin cfg1.N) :
    (Gen.dat1 V c).flushed 4 t = ((cfg1.win 4).blk t).view.read (Elt Ideal)
      (Cert.GraphConv.combine (V c main_v44) (V c main_v85) (V c main_v86) (V c main_v87)) := by
  show (cfg1.win 4).cut (grid1.coords t) ((Gen.dat1 V c).after 4 t) = _
  rw [Gen.after1_4]
  unfold Gen.out1_4
  rw [View.canon_unit_zero zeroOffsets1]
  simp only [View.ld_unit_zero (S := S2000x128) zeroOffsets1, View.ld_unit_zero (S := S1x128) zeroOffsets1]
  funext y
  obtain ⟨r, j, hr, hj⟩ : ∃ (r : Fin 2000) (j : Fin 128), r.val = (y 0).val ∧ j.val = (y 1).val :=
    ⟨⟨(y 0).val, (y 0).isLt⟩, ⟨(y 1).val, (y 1).isLt⟩, rfl, rfl⟩
  have ht : t.val < 50 := Nat.lt_of_lt_of_eq t.isLt Gen.N_1
  obtain ⟨R, hR⟩ : ∃ R : Fin 100000, R.val = t.val * 2000 + r.val := ⟨⟨t.val * 2000 + r.val, by have := r.isLt; omega⟩, rfl⟩
  obtain ⟨-, -, -, -, -, -, -, -, e0, e1⟩ := blockIndex1 t
  have ey : (cfg1.win 4).xinj (grid1.coords t) y = ix2 r j :=
    funext fun a => Fin.ext (by match a with | ⟨0, _⟩ => exact hr.symm | ⟨1, _⟩ => exact hj.symm)
  have ei : ((cfg1.win 4).blk t).view.emb y = (ix2 R j : S100000x128.Idx) := by
    funext a; apply Fin.ext
    match a with
    | ⟨0, _⟩ => show win1_4.index t (0 : Fin 2) * 2000 + 1 * (y 0).val = R.val; rw [e0, hR, hr]; omega
    | ⟨1, _⟩ => show win1_4.index t (1 : Fin 2) * 128 + 1 * (y 1).val = j.val; rw [e1, hj]; omega
  show Gen.k1_pay1 (Gen.iblk1 V c 0 t) (Gen.iblk1 V c 2 t) (Gen.iblk1 V c 1 t) (Gen.iblk1 V c 3 t) ((cfg1.win 4).xinj (grid1.coords t) y)
      = Cert.GraphConv.combine (V c main_v44) (V c main_v85) (V c main_v86) (V c main_v87) (((cfg1.win 4).blk t).view.emb y)
  rw [ey, ei]
  refine (combinePayload1_apply _ _ _ _ r j).trans ?_
  rw [tableA1_read V c t r j R hR, tableB1_read V c t r j R hR, rowP1_read V c t j, rowQ1_read V c t j]
  rfl

/-- An index of the result array lies in point t's block iff each coordinate lies in the block's range on its axis. -/
theorem mem_outBlock1 (t : Fin cfg1.N) (i : S100000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v88).slice (win1_4.rect t)).set ↔ _
  rw [View.set_slice_whole, Rect.mem_set_unit]
  exact Iff.rfl

/-- Row r of the result array is written back by point r / 2000. -/
theorem combine1_cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 50 := Gen.N_1
  obtain ⟨t, ht⟩ : ∃ t : Fin cfg1.N, t.val = (i 0).val / 2000 := ⟨⟨(i 0).val / 2000, by rw [hN]; omega⟩, rfl⟩
  refine ⟨t, Gen.flush1_4 t, ?_⟩
  rw [mem_outBlock1]
  obtain ⟨-, -, -, -, -, -, -, -, e0, e1⟩ := blockIndex1 t
  intro a
  match a with
  | ⟨0, _⟩ => show win1_4.index t (0 : Fin 2) * 2000 ≤ (i 0).val ∧ (i 0).val < win1_4.index t (0 : Fin 2) * 2000 + 2000; rw [e0, ht]; omega
  | ⟨1, _⟩ => show win1_4.index t (1 : Fin 2) * 128 ≤ (i 1).val ∧ (i 1).val < win1_4.index t (1 : Fin 2) * 128 + 128; rw [e1]; omega

/-- After the region the result array holds the combination of the two tables and the two bias rows. -/
theorem combine1_final (c : Dev nD) : (Gen.dat1 V c).arrAt 4 cfg1.N = Cert.GraphConv.combine (V c main_v44) (V c main_v85) (V c main_v86) (V c main_v87) :=
  (Gen.dat1 V c).arrAt_eq_of_cover 4 _ (fun t _ => combine1_flushed V c t) combine1_cover

/-! ## The second layer's region: the same statements over its own arrays -/

theorem zeroOffsets3 : (![0, 0] : Fin 2 → Nat) = fun _ => 0 :=
  funext fun a => by match a with | ⟨0, _⟩ => rfl | ⟨1, _⟩ => rfl

/-- One entry of the body's result: both tables' entries, each with its bias row's entry of the same column added,
    summed, halved and clamped below at zero. -/
theorem combinePayload3_apply (a b : Vec Ideal S2000x128 .f32) (p q : Vec Ideal S1x128 .f32) (r : Fin 2000) (j : Fin 128) :
    Gen.k3_pay1 a p b q (ix2 r j)
      = max (Ideal.ofBits .f32 0x3F000000#32 * ((a (ix2 r j) + p (ix2 0 j)) + (b (ix2 r j) + q (ix2 0 j)))) (Ideal.ofBits .f32 0x00000000#32) := by
  unfold Gen.k3_pay1
  show max (Ideal.ofBits .f32 0x3F000000#32 * ((shapeCast S2000x128 a shapeCasts_S2000x128_S2000x128 (ix2 r j) + broadcastTo S2000x128 (shapeCast S1x128 p shapeCasts_S1x128_S1x128) broadcasts_S1x128_S2000x128 (ix2 r j)) + (shapeCast S2000x128 b shapeCasts_S2000x128_S2000x128 (ix2 r j) + broadcastTo S2000x128 (shapeCast S1x128 q shapeCasts_S1x128_S1x128) broadcasts_S1x128_S2000x128 (ix2 r j)))) (Ideal.ofBits .f32 0x00000000#32) = _
  rw [broadcastTo_1b_ab_apply, broadcastTo_1b_ab_apply, shapeCast_self, shapeCast_self, shapeCast_self, shapeCast_self]

/-- The block indices over the grid: at point t both tables' blocks and the result's block are block (t, 0); the two
    bias rows' block is (0, 0) at every point. -/
theorem blockIndex3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Entry (r, j) of the first table's block at point t is the table's entry (2000 t + r, j). -/
theorem tableA3_read (c : Dev nD) (t : Fin cfg3.N) (r : Fin 2000) (j : Fin 128) (R : Fin 100000)
    (hR : R.val = t.val * 2000 + r.val) :
    Gen.iblk3 V c 0 t (ix2 r j) = (V c main_v133 : S100000x128.Idx → Elt Ideal .f32) (ix2 R j) := by
  obtain ⟨e0, e1, -⟩ := blockIndex3 t
  show (V c main_v133 : S100000x128.Idx → Elt Ideal .f32) (((cfg3.win 0).blk t).view.emb (ix2 r j)) = _
  refine congrArg (V c main_v133 : S100000x128.Idx → Elt Ideal .f32) (funext fun a => Fin.ext ?_)
  match a with
  | ⟨0, _⟩ => show win3_0.index t (0 : Fin 2) * 2000 + 1 * r.val = R.val; rw [e0, hR]; omega
  | ⟨1, _⟩ => show win3_0.index t (1 : Fin 2) * 128 + 1 * j.val = j.val; rw [e1]; omega

/-- The same for the second table. -/
theorem tableB3_read (c : Dev nD) (t : Fin cfg3.N) (r : Fin 2000) (j : Fin 128) (R : Fin 100000)
    (hR : R.val = t.val * 2000 + r.val) :
    Gen.iblk3 V c 1 t (ix2 r j) = (V c main_v174 : S100000x128.Idx → Elt Ideal .f32) (ix2 R j) := by
  obtain ⟨-, -, e0, e1, -⟩ := blockIndex3 t
  show (V c main_v174 : S100000x128.Idx → Elt Ideal .f32) (((cfg3.win 1).blk t).view.emb (ix2 r j)) = _
  refine congrArg (V c main_v174 : S100000x128.Idx → Elt Ideal .f32) (funext fun a => Fin.ext ?_)
  match a with
  | ⟨0, _⟩ => show win3_1.index t (0 : Fin 2) * 2000 + 1 * r.val = R.val; rw [e0, hR]; omega
  | ⟨1, _⟩ => show win3_1.index t (1 : Fin 2) * 128 + 1 * j.val = j.val; rw [e1]; omega

/-- The first bias row's block at any point is the row itself. -/
theorem rowP3_read (c : Dev nD) (t : Fin cfg3.N) (j : Fin 128) :
    Gen.iblk3 V c 2 t (ix2 0 j) = (V c main_v175 : S1x128.Idx → Elt Ideal .f32) (ix2 0 j) := by
  obtain ⟨-, -, -, -, e0, e1, -⟩ := blockIndex3 t
  show (V c main_v175 : S1x128.Idx → Elt Ideal .f32) (((cfg3.win 2).blk t).view.emb (ix2 0 j)) = _
  refine congrArg (V c main_v175 : S1x128.Idx → Elt Ideal .f32) (funext fun a => Fin.ext ?_)
  match a with
  | ⟨0, _⟩ => show win3_2.index t (0 : Fin 2) * 1 + 1 * 0 = 0; rw [e0]
  | ⟨1, _⟩ => show win3_2.index t (1 : Fin 2) * 128 + 1 * j.val = j.val; rw [e1]; omega

/-- The same for the second bias row. -/
theorem rowQ3_read (c : Dev nD) (t : Fin cfg3.N) (j : Fin 128) :
    Gen.iblk3 V c 3 t (ix2 0 j) = (V c main_v176 : S1x128.Idx → Elt Ideal .f32) (ix2 0 j) := by
  obtain ⟨-, -, -, -, -, -, e0, e1, -⟩ := blockIndex3 t
  show (V c main_v176 : S1x128.Idx → Elt Ideal .f32) (((cfg3.win 3).blk t).view.emb (ix2 0 j)) = _
  refine congrArg (V c main_v176 : S1x128.Idx → Elt Ideal .f32) (funext fun a => Fin.ext ?_)
  match a with
  | ⟨0, _⟩ => show win3_3.index t (0 : Fin 2) * 1 + 1 * 0 = 0; rw [e0]
  | ⟨1, _⟩ => show win3_3.index t (1 : Fin 2) * 128 + 1 * j.val = j.val; rw [e1]; omega

/-- What point t writes back is block t of the combination of the four arrays as the region finds them. -/
theorem combine3_flushed (c : Dev nD) (t : Fin cfg3.N) :
    (Gen.dat3 V c).flushed 4 t = ((cfg3.win 4).blk t).view.read (Elt Ideal)
      (Cert.GraphConv.combine (V c main_v133) (V c main_v174) (V c main_v175) (V c main_v176)) := by
  show (cfg3.win 4).cut (grid3.coords t) ((Gen.dat3 V c).after 4 t) = _
  rw [Gen.after3_4]
  unfold Gen.out3_4
  rw [View.canon_unit_zero zeroOffsets3]
  simp only [View.ld_unit_zero (S := S2000x128) zeroOffsets3, View.ld_unit_zero (S := S1x128) zeroOffsets3]
  funext y
  obtain ⟨r, j, hr, hj⟩ : ∃ (r : Fin 2000) (j : Fin 128), r.val = (y 0).val ∧ j.val = (y 1).val :=
    ⟨⟨(y 0).val, (y 0).isLt⟩, ⟨(y 1).val, (y 1).isLt⟩, rfl, rfl⟩
  have ht : t.val < 50 := Nat.lt_of_lt_of_eq t.isLt Gen.N_3
  obtain ⟨R, hR⟩ : ∃ R : Fin 100000, R.val = t.val * 2000 + r.val := ⟨⟨t.val * 2000 + r.val, by have := r.isLt; omega⟩, rfl⟩
  obtain ⟨-, -, -, -, -, -, -, -, e0, e1⟩ := blockIndex3 t
  have ey : (cfg3.win 4).xinj (grid3.coords t) y = ix2 r j :=
    funext fun a => Fin.ext (by match a with | ⟨0, _⟩ => exact hr.symm | ⟨1, _⟩ => exact hj.symm)
  have ei : ((cfg3.win 4).blk t).view.emb y = (ix2 R j : S100000x128.Idx) := by
    funext a; apply Fin.ext
    match a with
    | ⟨0, _⟩ => show win3_4.index t (0 : Fin 2) * 2000 + 1 * (y 0).val = R.val; rw [e0, hR, hr]; omega
    | ⟨1, _⟩ => show win3_4.index t (1 : Fin 2) * 128 + 1 * (y 1).val = j.val; rw [e1, hj]; omega
  show Gen.k3_pay1 (Gen.iblk3 V c 0 t) (Gen.iblk3 V c 2 t) (Gen.iblk3 V c 1 t) (Gen.iblk3 V c 3 t) ((cfg3.win 4).xinj (grid3.coords t) y)
      = Cert.GraphConv.combine (V c main_v133) (V c main_v174) (V c main_v175) (V c main_v176) (((cfg3.win 4).blk t).view.emb y)
  rw [ey, ei]
  refine (combinePayload3_apply _ _ _ _ r j).trans ?_
  rw [tableA3_read V c t r j R hR, tableB3_read V c t r j R hR, rowP3_read V c t j, rowQ3_read V c t j]
  rfl

/-- An index of the result array lies in point t's block iff each coordinate lies in the block's range on its axis. -/
theorem mem_outBlock3 (t : Fin cfg3.N) (i : S100000x128.Idx) :
    i ∈ ((cfg3.win 4).blk t).view.set ↔ ∀ a : Fin 2, win3_4.index t a * S2000x128.size a ≤ (i a).val ∧ (i a).val < win3_4.index t a * S2000x128.size a + S2000x128.size a := by
  show i ∈ ((View.whole main_v177).slice (win3_4.rect t)).set ↔ _
  rw [View.set_slice_whole, Rect.mem_set_unit]
  exact Iff.rfl

/-- Row r of the result array is written back by point r / 2000. -/
theorem combine3_cover (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have hN : cfg3.N = 50 := Gen.N_3
  obtain ⟨t, ht⟩ : ∃ t : Fin cfg3.N, t.val = (i 0).val / 2000 := ⟨⟨(i 0).val / 2000, by rw [hN]; omega⟩, rfl⟩
  refine ⟨t, Gen.flush3_4 t, ?_⟩
  rw [mem_outBlock3]
  obtain ⟨-, -, -, -, -, -, -, -, e0, e1⟩ := blockIndex3 t
  intro a
  match a with
  | ⟨0, _⟩ => show win3_4.index t (0 : Fin 2) * 2000 ≤ (i 0).val ∧ (i 0).val < win3_4.index t (0 : Fin 2) * 2000 + 2000; rw [e0, ht]; omega
  | ⟨1, _⟩ => show win3_4.index t (1 : Fin 2) * 128 ≤ (i 1).val ∧ (i 1).val < win3_4.index t (1 : Fin 2) * 128 + 128; rw [e1]; omega

/-- After the region the result array holds the combination of the two tables and the two bias rows. -/
theorem combine3_final (c : Dev nD) : (Gen.dat3 V c).arrAt 4 cfg3.N = Cert.GraphConv.combine (V c main_v133) (V c main_v174) (V c main_v175) (V c main_v176) :=
  (Gen.dat3 V c).arrAt_eq_of_cover 4 _ (fun t _ => combine3_flushed V c t) combine3_cover

end Cert.KernelIdeal.Dense

end
-- ==== Proof.ClassifyRegion.lean ====
/-
  The pair classifier's region: each grid point multiplies a 4000-row block of the pair table by the whole 256 x 2
  weight matrix and adds the one-row bias to every row, block after block down the table, so that the array the
  blocks are written back to ends holding, at entry (r, j), the sum over k of x (r, k) * w (k, j), plus b (0, j).
-/
import proofs.«167240_j41695542509880_1_alg».proof.Proof.Gen.KernelIdeal.Frame
import proofs.«167240_j41695542509880_1_alg».proof.Proof.GraphConv
import proofs.«167240_j41695542509880_1_alg».proof.Proof.LibPlainMatmul
import Idealize.ShloMosaic.Lib.Pipeline.Value
import Idealize.ShloMosaic.Lib.ValueIdx
import Idealize.ShloMosaic.Lib.ValueLayout

set_option maxRecDepth 16384

noncomputable section

namespace Cert.KernelIdeal.Dense

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access, as a constant function. -/
theorem classify_zero_offsets : (![0, 0] : Fin 2 → Nat) = fun _ => 0 := funext fun a => by fin_cases a <;> rfl

/-- What one grid point computes, at row p and column q of its block: the sum over k of x (p, k) * w (k, q), plus
    the bias row's entry q. Rounding the operands is the identity over the extended reals, the product accumulates
    into zero, and the one-row bias is repeated down the rows. -/
theorem classify4_payload (x0 : Vec Ideal S4000x256 .f32) (x1 : Vec Ideal S256x2 .f32) (x2 : Vec Ideal S1x2 .f32)
    (p : Fin 4000) (q : Fin 2) :
    k4_pay1 x0 x1 x2 (ix2 p q) = (∑ k : Fin 256, x0 (ix2 p k) * x1 (ix2 k q)) + x2 (ix2 0 q) := by
  unfold k4_pay1
  rw [shapeCast_self, shapeCast_self]
  refine (addf_apply _ _ _).trans ?_
  refine congrArg₂ (· + ·) ?_ ?_
  · exact PlainMatmul.matmul_zero_apply dot_S4000x256_S256x2_S4000x2_1_0_0_1_n_n rfl rfl rfl rfl rfl rfl rfl rfl none _ _ p q
  · exact broadcastTo_1b_ab_apply _ _ p q

/-- The block index maps over the grid: the pair table's and the output's row blocks move with the grid point, and
    every other block index is zero. -/
theorem classify4_index_facts : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = t.val
    ∧ win4_3.index t (1 : Fin 2) = 0 :=
  (by decide +kernel : ∀ t : Fin grid4.N, _)

/-- Entry (p, k) of the pair table's block at grid point t is entry (4000 t + p, k) of the table. -/
theorem classify4_rows_read (c : Dev nD) (t : Fin cfg4.N) (p : Fin 4000) (k : Fin 256) (r : Fin 200000)
    (hr : r.val = t.val * 4000 + p.val) :
    iblk4 V c 0 t (ix2 p k) = V c main_v192 (ix2 r k) := by
  obtain ⟨e0, e1, -, -, -, -, -, -⟩ := classify4_index_facts t
  unfold iblk4
  rw [View.read_apply]
  show V c main_v192 _ = V c main_v192 _
  refine congrArg (V c main_v192) (funext fun a => Fin.ext ?_)
  match a with
  | ⟨0, _⟩ => show win4_0.index t (0 : Fin 2) * 4000 + 1 * p.val = r.val; omega
  | ⟨1, _⟩ => show win4_0.index t (1 : Fin 2) * 256 + 1 * k.val = k.val; omega

/-- The weight's block at every grid point is the whole weight matrix. -/
theorem classify4_weight_read (c : Dev nD) (t : Fin cfg4.N) (k : Fin 256) (q : Fin 2) :
    iblk4 V c 1 t (ix2 k q) = V c main_arg15 (ix2 k q) := by
  obtain ⟨-, -, e2, e3, -, -, -, -⟩ := classify4_index_facts t
  unfold iblk4
  rw [View.read_apply]
  show V c main_arg15 _ = V c main_arg15 _
  refine congrArg (V c main_arg15) (funext fun a => Fin.ext ?_)
  match a with
  | ⟨0, _⟩ => show win4_1.index t (0 : Fin 2) * 256 + 1 * k.val = k.val; omega
  | ⟨1, _⟩ => show win4_1.index t (1 : Fin 2) * 2 + 1 * q.val = q.val; omega

/-- The bias's block at every grid point is the whole bias row. -/
theorem classify4_bias_read (c : Dev nD) (t : Fin cfg4.N) (z : Fin 1) (q : Fin 2) :
    iblk4 V c 2 t (ix2 z q) = V c main_v193 (ix2 z q) := by
  obtain ⟨-, -, -, -, e4, e5, -, -⟩ := classify4_index_facts t
  unfold iblk4
  rw [View.read_apply]
  show V c main_v193 _ = V c main_v193 _
  refine congrArg (V c main_v193) (funext fun a => Fin.ext ?_)
  match a with
  | ⟨0, _⟩ => show win4_2.index t (0 : Fin 2) * 1 + 1 * z.val = z.val; omega
  | ⟨1, _⟩ => show win4_2.index t (1 : Fin 2) * 2 + 1 * q.val = q.val; omega

/-- Entry (p, q) of the output's block at grid point t sits at (4000 t + p, q) in the output array. -/
theorem classify4_out_emb (t : Fin cfg4.N) (p : Fin 4000) (q : Fin 2) (r : Fin 200000)
    (hr : r.val = t.val * 4000 + p.val) :
    ((cfg4.win 3).blk t).view.emb (ix2 p q) = (ix2 r q : S200000x2.Idx) := by
  obtain ⟨-, -, -, -, -, -, e6, e7⟩ := classify4_index_facts t
  refine funext fun a => Fin.ext ?_
  match a with
  | ⟨0, _⟩ => show win4_3.index t (0 : Fin 2) * 4000 + 1 * p.val = r.val; omega
  | ⟨1, _⟩ => show win4_3.index t (1 : Fin 2) * 2 + 1 * q.val = q.val; omega

/-- What grid point t writes back is block t of the affine map of the three arrays as the region finds them. -/
theorem classify4_flushed (c : Dev nD) (t : Fin cfg4.N) :
    (Gen.dat4 V c).flushed 3 t = ((cfg4.win 3).blk t).view.read (Elt Ideal) (Cert.GraphConv.classify (V c main_v192) (V c main_arg15) (V c main_v193)) := by
  show (cfg4.win 3).cut (grid4.coords t) ((Gen.dat4 V c).after 3 t) = _
  rw [Gen.after4_3]
  unfold Gen.out4_3
  rw [View.canon_unit_zero classify_zero_offsets]
  simp only [View.ld_unit_zero (S := S4000x256) classify_zero_offsets, View.ld_unit_zero (S := S256x2) classify_zero_offsets, View.ld_unit_zero (S := S1x2) classify_zero_offsets]
  funext j
  obtain ⟨p, q, rfl⟩ : ∃ (p : Fin 4000) (q : Fin 2), j = ix2 p q := ⟨j 0, j 1, eq_ix2 j⟩
  have ht : t.val < 50 := lt_of_lt_of_eq t.isLt N_4
  have hr : t.val * 4000 + p.val < 200000 := by have := p.isLt; omega
  show k4_pay1 (iblk4 V c 0 t) (iblk4 V c 1 t) (iblk4 V c 2 t) (ix2 p q) = Cert.GraphConv.classify (V c main_v192) (V c main_arg15) (V c main_v193) (((cfg4.win 3).blk t).view.emb (ix2 p q))
  rw [classify4_out_emb t p q ⟨t.val * 4000 + p.val, hr⟩ rfl, classify4_payload, classify4_bias_read V c t 0 q]
  refine congrArg (· + V c main_v193 (ix2 0 q)) (Finset.sum_congr rfl fun k _ => ?_)
  rw [classify4_rows_read V c t p k ⟨t.val * 4000 + p.val, hr⟩ rfl, classify4_weight_read V c t k q]

/-- An index of the output array lies in grid point t's block exactly when each coordinate is in the block's range. -/
theorem classify4_mem_block (t : Fin cfg4.N) (i : S200000x2.Idx) :
    i ∈ ((cfg4.win 3).blk t).view.set ↔ ∀ a : Fin 2, win4_3.index t a * S4000x2.size a ≤ (i a).val ∧ (i a).val < win4_3.index t a * S4000x2.size a + S4000x2.size a := by
  show i ∈ ((View.whole main_v194).slice (win4_3.rect t)).set ↔ _
  rw [View.set_slice_whole, Rect.mem_set_unit]
  exact Iff.rfl

/-- Row r of the output array is written by grid point r / 4000. -/
theorem classify4_cover (i : S200000x2.Idx) :
    ∃ t : Fin cfg4.N, (cfg4.win 3).flush t = true ∧ i ∈ ((cfg4.win 3).blk t).view.set := by
  have h0 : (i 0).val < 200000 := (i 0).isLt
  have h1 : (i 1).val < 2 := (i 1).isLt
  have hN : cfg4.N = 50 := N_4
  refine ⟨⟨(i 0).val / 4000, by omega⟩, flush4_3 _, ?_⟩
  obtain ⟨-, -, -, -, -, -, e6, e7⟩ := classify4_index_facts ⟨(i 0).val / 4000, by omega⟩
  rw [classify4_mem_block]
  intro a
  match a with
  | ⟨0, _⟩ =>
    show win4_3.index _ (0 : Fin 2) * 4000 ≤ (i 0).val ∧ (i 0).val < win4_3.index _ (0 : Fin 2) * 4000 + 4000
    rw [e6]; show (i 0).val / 4000 * 4000 ≤ (i 0).val ∧ (i 0).val < (i 0).val / 4000 * 4000 + 4000; omega
  | ⟨1, _⟩ =>
    show win4_3.index _ (1 : Fin 2) * 2 ≤ (i 1).val ∧ (i 1).val < win4_3.index _ (1 : Fin 2) * 2 + 2
    rw [e7]; omega

/-- After the region the output array holds the whole affine map of the pair table. -/
theorem classify4_final (c : Dev nD) : (Gen.dat4 V c).arrAt 3 cfg4.N = Cert.GraphConv.classify (V c main_v192) (V c main_arg15) (V c main_v193) :=
  (Gen.dat4 V c).arrAt_eq_of_cover 3 (Cert.GraphConv.classify (V c main_v192) (V c main_arg15) (V c main_v193)) (fun t _ => classify4_flushed V c t) classify4_cover

end Cert.KernelIdeal.Dense

end
-- ==== Proof.Boundaries.lean ====
/-
  The idealized kernel's buffers at every boundary between its regions and host stretches, read back to the
  launch arguments.

  The last boundary's contents are a fold: each stretch applies its operations, each region replaces its output
  array by what its grid points wrote back. Walking the fold from the launch memory: the arguments never change;
  region 0 leaves the node features times the first layer's weights; stretch 1 aggregates the two halves of that
  product over the two edge lists and lays the biases as rows; region 1 combines them into the first layer's node
  table; regions 2 and 3 repeat this for the second layer; stretch 4 gathers the query pairs' rows and region 4
  classifies them. The two results are the second layer's node table and the pair logits, each in the kernel's
  arrangement (KernelForm) of the launch arguments.
-/
import proofs.«167240_j41695542509880_1_alg».proof.Proof.Gen.KernelIdeal.Frame
import proofs.«167240_j41695542509880_1_alg».proof.Proof.HostStretches
import proofs.«167240_j41695542509880_1_alg».proof.Proof.KernelForm
import proofs.«167240_j41695542509880_1_alg».proof.Proof.ProjRegion
import proofs.«167240_j41695542509880_1_alg».proof.Proof.CombineRegion
import proofs.«167240_j41695542509880_1_alg».proof.Proof.ClassifyRegion

set_option maxRecDepth 16384

noncomputable section

namespace Cert.KernelIdeal.Final

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-! ## The arguments at every boundary

An argument is one of the first seventeen buffers. No stretch writes it; a region either stages it through an input
window, which is never written back, or does not touch it. So at every boundary it holds its launch contents. -/

/-- Of region 0's arrays only the node features are an argument. -/
theorem region0_args : ∀ w : Fin cfg0.W, (Pipeline.arrRef spec0 w).idx.val < 17 → Pipeline.arrRef spec0 w = main_arg0 := by decide
/-- None of region 1's arrays is an argument. -/
theorem region1_args : ∀ w : Fin cfg1.W, ¬ (Pipeline.arrRef spec1 w).idx.val < 17 := by decide
/-- None of region 2's arrays is an argument. -/
theorem region2_args : ∀ w : Fin cfg2.W, ¬ (Pipeline.arrRef spec2 w).idx.val < 17 := by decide
/-- None of region 3's arrays is an argument. -/
theorem region3_args : ∀ w : Fin cfg3.W, ¬ (Pipeline.arrRef spec3 w).idx.val < 17 := by decide

theorem arg_at1 (b : Ref sig .tc) (hb : b.idx.val < 17) : W1 m ρ c (Proc.devRef .tc b) = m ((c : Thread nD τ).loc b) :=
  Stretch.keep0 (W0 m ρ c) b hb

theorem arg_at2 (b : Ref sig .tc) (hb : b.idx.val < 17) : W2 m ρ c (Proc.devRef .tc b) = m ((c : Thread nD τ).loc b) := by
  by_cases h0 : b = main_arg0
  · subst h0
    exact ((W2_arr m ρ c 0).trans (((dat0 (V1 m ρ) c).arrAt_in 0 rfl _).trans (A_eq0 (V1 m ρ) c 0))).trans
      (arg_at1 m ρ c main_arg0 hb)
  · refine (W2_of_ne m ρ c b (fun w e => ?_)).trans (arg_at1 m ρ c b hb)
    subst e
    exact h0 (region0_args w hb)

theorem arg_at3 (b : Ref sig .tc) (hb : b.idx.val < 17) : W3 m ρ c (Proc.devRef .tc b) = m ((c : Thread nD τ).loc b) :=
  (Stretch.keep1 (W2 m ρ c) b hb).trans (arg_at2 m ρ c b hb)

theorem arg_at4 (b : Ref sig .tc) (hb : b.idx.val < 17) : W4 m ρ c (Proc.devRef .tc b) = m ((c : Thread nD τ).loc b) := by
  refine (W4_of_ne m ρ c b (fun w e => ?_)).trans (arg_at3 m ρ c b hb)
  subst e
  exact region1_args w hb

theorem arg_at5 (b : Ref sig .tc) (hb : b.idx.val < 17) : W5 m ρ c (Proc.devRef .tc b) = m ((c : Thread nD τ).loc b) :=
  (Stretch.keep2 (W4 m ρ c) b hb).trans (arg_at4 m ρ c b hb)

theorem arg_at6 (b : Ref sig .tc) (hb : b.idx.val < 17) : W6 m ρ c (Proc.devRef .tc b) = m ((c : Thread nD τ).loc b) := by
  refine (W6_of_ne m ρ c b (fun w e => ?_)).trans (arg_at5 m ρ c b hb)
  subst e
  exact region2_args w hb

theorem arg_at7 (b : Ref sig .tc) (hb : b.idx.val < 17) : W7 m ρ c (Proc.devRef .tc b) = m ((c : Thread nD τ).loc b) :=
  (Stretch.keep3 (W6 m ρ c) b hb).trans (arg_at6 m ρ c b hb)

theorem arg_at8 (b : Ref sig .tc) (hb : b.idx.val < 17) : W8 m ρ c (Proc.devRef .tc b) = m ((c : Thread nD τ).loc b) := by
  refine (W8_of_ne m ρ c b (fun w e => ?_)).trans (arg_at7 m ρ c b hb)
  subst e
  exact region3_args w hb

theorem arg_at9 (b : Ref sig .tc) (hb : b.idx.val < 17) : W9 m ρ c (Proc.devRef .tc b) = m ((c : Thread nD τ).loc b) :=
  (Stretch.keep4 (W8 m ρ c) b hb).trans (arg_at8 m ρ c b hb)

/-! ## The first layer -/

/-- After region 0 the projection buffer holds the node features times the first layer's weights side by side. -/
theorem proj_first : W2 m ρ c (Proc.devRef .tc main_v1)
    = Cert.GraphConv.matProd (m ((c : Thread nD τ).loc main_arg0)) (Cert.GraphConv.sideBySide (m ((c : Thread nD τ).loc main_arg7)) (m ((c : Thread nD τ).loc main_arg9))) := by
  refine (W2_arr m ρ c 2).trans ((Dense.proj0_final (V1 m ρ) c).trans ?_)
  have e0 : V1 m ρ c main_arg0 = m ((c : Thread nD τ).loc main_arg0) := arg_at1 m ρ c main_arg0 (by decide)
  have e1 : V1 m ρ c main_v0 = Cert.GraphConv.sideBySide (m ((c : Thread nD τ).loc main_arg7)) (m ((c : Thread nD τ).loc main_arg9)) :=
    Stretch.weights0 (W0 m ρ c)
  rw [e0, e1]

/-- The first layer's node table, in the kernel's arrangement, of the launch arguments. -/
def firstLayer : (⟨S100000x128, .f32⟩ : BufTy).Contents (Elt Ideal) :=
  Cert.GraphConv.layerK (m ((c : Thread nD τ).loc main_arg0)) (m ((c : Thread nD τ).loc main_arg7)) (m ((c : Thread nD τ).loc main_arg8)) (m ((c : Thread nD τ).loc main_arg9)) (m ((c : Thread nD τ).loc main_arg10)) (m ((c : Thread nD τ).loc main_arg1)) (m ((c : Thread nD τ).loc main_arg2)) (m ((c : Thread nD τ).loc main_arg3)) (m ((c : Thread nD τ).loc main_arg4))

/-- After region 1 its output buffer holds the first layer's node table. -/
theorem layer_first : W4 m ρ c (Proc.devRef .tc main_v88) = firstLayer m c := by
  refine (W4_arr m ρ c 4).trans ((Dense.combine1_final (V3 m ρ) c).trans ?_)
  have ea : V3 m ρ c main_v44 = Cert.GraphConv.aggregate (F := Ideal) (Cert.GraphConv.leftHalf (Cert.GraphConv.matProd (m ((c : Thread nD τ).loc main_arg0)) (Cert.GraphConv.sideBySide (m ((c : Thread nD τ).loc main_arg7)) (m ((c : Thread nD τ).loc main_arg9))))) (m ((c : Thread nD τ).loc main_arg1)) (m ((c : Thread nD τ).loc main_arg2)) := by
    refine ((Stretch.layer0_inputs (W2 m ρ c)).1).trans ?_
    rw [proj_first m ρ c, arg_at2 m ρ c main_arg1 (by decide), arg_at2 m ρ c main_arg2 (by decide)]
    rfl
  have eb : V3 m ρ c main_v85 = Cert.GraphConv.aggregate (F := Ideal) (Cert.GraphConv.rightHalf (Cert.GraphConv.matProd (m ((c : Thread nD τ).loc main_arg0)) (Cert.GraphConv.sideBySide (m ((c : Thread nD τ).loc main_arg7)) (m ((c : Thread nD τ).loc main_arg9))))) (m ((c : Thread nD τ).loc main_arg3)) (m ((c : Thread nD τ).loc main_arg4)) := by
    refine ((Stretch.layer0_inputs (W2 m ρ c)).2.1).trans ?_
    rw [proj_first m ρ c, arg_at2 m ρ c main_arg3 (by decide), arg_at2 m ρ c main_arg4 (by decide)]
    rfl
  have ep : V3 m ρ c main_v86 = Cert.GraphConv.oneRow (m ((c : Thread nD τ).loc main_arg8)) := by
    refine ((Stretch.layer0_inputs (W2 m ρ c)).2.2.1).trans ?_
    rw [arg_at2 m ρ c main_arg8 (by decide)]
    rfl
  have eq : V3 m ρ c main_v87 = Cert.GraphConv.oneRow (m ((c : Thread nD τ).loc main_arg10)) := by
    refine ((Stretch.layer0_inputs (W2 m ρ c)).2.2.2).trans ?_
    rw [arg_at2 m ρ c main_arg10 (by decide)]
    rfl
  rw [ea, eb, ep, eq]
  rfl

/-! ## The second layer -/

/-- After region 2 the projection buffer holds the first layer's table times the second layer's weights side by side. -/
theorem proj_second : W6 m ρ c (Proc.devRef .tc main_v90)
    = Cert.GraphConv.matProd (firstLayer m c) (Cert.GraphConv.sideBySide (m ((c : Thread nD τ).loc main_arg11)) (m ((c : Thread nD τ).loc main_arg13))) := by
  refine (W6_arr m ρ c 2).trans ((Dense.proj2_final (V5 m ρ) c).trans ?_)
  have e0 : V5 m ρ c main_v88 = firstLayer m c := (Stretch.keep2_h1 (W4 m ρ c)).trans (layer_first m ρ c)
  have e1 : V5 m ρ c main_v89 = Cert.GraphConv.sideBySide (m ((c : Thread nD τ).loc main_arg11)) (m ((c : Thread nD τ).loc main_arg13)) := by
    refine (Stretch.weights1 (W4 m ρ c)).trans ?_
    rw [arg_at4 m ρ c main_arg11 (by decide), arg_at4 m ρ c main_arg13 (by decide)]
    rfl
  rw [e0, e1]

/-- The final node table, in the kernel's arrangement, of the launch arguments. -/
def secondLayer : (⟨S100000x128, .f32⟩ : BufTy).Contents (Elt Ideal) :=
  Cert.GraphConv.layerK (firstLayer m c) (m ((c : Thread nD τ).loc main_arg11)) (m ((c : Thread nD τ).loc main_arg12)) (m ((c : Thread nD τ).loc main_arg13)) (m ((c : Thread nD τ).loc main_arg14)) (m ((c : Thread nD τ).loc main_arg1)) (m ((c : Thread nD τ).loc main_arg2)) (m ((c : Thread nD τ).loc main_arg3)) (m ((c : Thread nD τ).loc main_arg4))

/-- After region 3 its output buffer holds the final node table. -/
theorem layer_second : W8 m ρ c (Proc.devRef .tc main_v177) = secondLayer m c := by
  refine (W8_arr m ρ c 4).trans ((Dense.combine3_final (V7 m ρ) c).trans ?_)
  have ea : V7 m ρ c main_v133 = Cert.GraphConv.aggregate (F := Ideal) (Cert.GraphConv.leftHalf (Cert.GraphConv.matProd (firstLayer m c) (Cert.GraphConv.sideBySide (m ((c : Thread nD τ).loc main_arg11)) (m ((c : Thread nD τ).loc main_arg13))))) (m ((c : Thread nD τ).loc main_arg1)) (m ((c : Thread nD τ).loc main_arg2)) := by
    refine ((Stretch.layer1_inputs (W6 m ρ c)).1).trans ?_
    rw [proj_second m ρ c, arg_at6 m ρ c main_arg1 (by decide), arg_at6 m ρ c main_arg2 (by decide)]
    rfl
  have eb : V7 m ρ c main_v174 = Cert.GraphConv.aggregate (F := Ideal) (Cert.GraphConv.rightHalf (Cert.GraphConv.matProd (firstLayer m c) (Cert.GraphConv.sideBySide (m ((c : Thread nD τ).loc main_arg11)) (m ((c : Thread nD τ).loc main_arg13))))) (m ((c : Thread nD τ).loc main_arg3)) (m ((c : Thread nD τ).loc main_arg4)) := by
    refine ((Stretch.layer1_inputs (W6 m ρ c)).2.1).trans ?_
    rw [proj_second m ρ c, arg_at6 m ρ c main_arg3 (by decide), arg_at6 m ρ c main_arg4 (by decide)]
    rfl
  have ep : V7 m ρ c main_v175 = Cert.GraphConv.oneRow (m ((c : Thread nD τ).loc main_arg12)) := by
    refine ((Stretch.layer1_inputs (W6 m ρ c)).2.2.1).trans ?_
    rw [arg_at6 m ρ c main_arg12 (by decide)]
    rfl
  have eq : V7 m ρ c main_v176 = Cert.GraphConv.oneRow (m ((c : Thread nD τ).loc main_arg14)) := by
    refine ((Stretch.layer1_inputs (W6 m ρ c)).2.2.2).trans ?_
    rw [arg_at6 m ρ c main_arg14 (by decide)]
    rfl
  rw [ea, eb, ep, eq]
  rfl

/-! ## The two results -/

/-- None of region 4's arrays is the node table. -/
theorem region4_nodes : ∀ w : Fin cfg4.W, Pipeline.arrRef spec4 w ≠ main_v177 := by decide

/-- The node table the program returns. -/
theorem nodes_final : W10 m ρ c (Proc.devRef .tc main_v177) = secondLayer m c :=
  (W10_of_ne m ρ c main_v177 (region4_nodes)).trans ((Stretch.keep4_z (W8 m ρ c)).trans (layer_second m ρ c))

/-- The pair logits the program returns. -/
theorem logits_final : W10 m ρ c (Proc.devRef .tc main_v194)
    = Cert.GraphConv.logitsK (secondLayer m c) (m ((c : Thread nD τ).loc main_arg5)) (m ((c : Thread nD τ).loc main_arg6)) (m ((c : Thread nD τ).loc main_arg15)) (m ((c : Thread nD τ).loc main_arg16)) := by
  refine (W10_arr m ρ c 3).trans ((Dense.classify4_final (V9 m ρ) c).trans ?_)
  have ex : V9 m ρ c main_v192 = Cert.GraphConv.pairRows (F := Ideal) (secondLayer m c) (m ((c : Thread nD τ).loc main_arg5)) (m ((c : Thread nD τ).loc main_arg6)) := by
    refine (Stretch.pairs (W8 m ρ c)).trans ?_
    rw [layer_second m ρ c, arg_at8 m ρ c main_arg5 (by decide), arg_at8 m ρ c main_arg6 (by decide)]
  have ew : V9 m ρ c main_arg15 = m ((c : Thread nD τ).loc main_arg15) := arg_at9 m ρ c main_arg15 (by decide)
  have eb : V9 m ρ c main_v193 = shapeCast S1x2 (m ((c : Thread nD τ).loc main_arg16)) Cert.KernelIdeal.Facts₀.shapeCasts_S2_S1x2 := by
    refine (Stretch.biasC (W8 m ρ c)).trans ?_
    rw [arg_at8 m ρ c main_arg16 (by decide)]
  rw [ex, ew, eb]
  rfl

end Cert.KernelIdeal.Final

end
-- ==== Proof.LibPlainDot.lean ====
/-
  The host's plain matrix product read at an index. For dimension numbers that contract the left operand's columns
  with the right operand's rows and have no batch axis, jnp's dot_general of an [M, K] by a [K, N] array, read at
  (p, q) over the extended reals, is the textbook sum over k of lhs (p, k) · rhs (k, q), whatever the precision and
  the schedule key: the same sum a matrix-unit product into a zero accumulator gives (LibPlainMatmul, whose operand
  index lemmas this file uses).
-/
import proofs.«167240_j41695542509880_1_alg».proof.Proof.LibPlainMatmul

noncomputable section

namespace Idealize.ShloMosaic.PlainMatmul

open Idealize.ShloMosaic Idealize.ShloMosaic.ValueIdx

variable {M K N : Nat}

/-- The host's product at (p, q) is the sum over k of lhs (p, k) · rhs (k, q). -/
theorem dotGeneral_plain_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  rw [Ideal.dotGeneral_apply, ← Equiv.sum_comp (contrEquiv1 d K hr hs).symm]
  refine Finset.sum_congr rfl fun k _ => ?_
  rw [lhsIdx_plain d hlc hln hlb hr hs p q k, rhsIdx_plain d hrc hrn hrb hlb hln hr hs p q k]

end Idealize.ShloMosaic.PlainMatmul

end
-- ==== Proof.CombineLaw.lean ====
/-
  The kernel adds each layer's two bias vectors laid as 1 × 128 arrays; the host adds a bias vector to every row of a
  node table by broadcasting it. Read index by index both are max(½ · ((a (r, j) + bias (j)) + (b (r, j) + bias' (j))), 0),
  so the combination over one-row arrays is the host's expression.
-/
import proofs.«167240_j41695542509880_1_alg».proof.Proof.GraphConv
import proofs.«167240_j41695542509880_1_alg».proof.Proof.Gen.KernelIdeal
import Idealize.ShloMosaic.Lib.Pipeline.Value
import Idealize.ShloMosaic.Lib.ValueIdx
import Idealize.ShloMosaic.Lib.ValueLayout

set_option maxRecDepth 16384

noncomputable section

namespace Cert.GraphConv

open Cert.KernelIdeal Idealize.ShloMosaic Idealize.ShloMosaic.ValueIdx
open Cert.KernelIdeal.Facts₀

/-- A bias vector added to every row, read at (r, j): the vector's entry j. -/
theorem rowBias_apply (bias : FVec Ideal S128 .f32) (r : Fin 100000) (j : Fin 128) :
    rowBias (F := Ideal) bias (ix2 r j) = bias (ix1 j) := by
  unfold rowBias
  refine (broadcastInDim_apply _ _ _ (ix2 r j) (ix2 (0 : Fin 1) j) (fun a => match a with
    | ⟨0, _⟩ => by show 0 = if (1 : Nat) = 1 then 0 else r.val; rw [if_pos rfl]
    | ⟨1, _⟩ => by show j.val = if (128 : Nat) = 1 then 0 else j.val; rw [if_neg (by decide)])).trans ?_
  exact broadcastInDim_apply _ _ bias (ix2 (0 : Fin 1) j) (ix1 j) (fun a => match a with
    | ⟨0, _⟩ => by show j.val = if (128 : Nat) = 1 then 0 else j.val; rw [if_neg (by decide)])

/-- A scalar constant spread over the node table, read anywhere: the constant. -/
theorem spreadConstant_apply (w : BitVec 32) (i : S100000x128.Idx) :
    broadcastInDim S100000x128 ![] Cert.ReferenceIdeal.Facts₀.bcast_S_S100000x128 (constant (F := Ideal) S_ .f32 w) i
      = Ideal.ofBits .f32 w :=
  broadcastInDim_apply _ _ _ i ix0 (fun a => a.elim0)

/-- The combination over the two bias vectors laid as one-row arrays is the host's
    max(½ · ((a + bias) + (b + bias')), 0). -/
theorem combine_oneRow (a b : FVec Ideal S100000x128 .f32) (bp bs : FVec Ideal S128 .f32) :
    combine a b (shapeCast S1x128 bp shapeCasts_S128_S1x128) (shapeCast S1x128 bs shapeCasts_S128_S1x128)
      = maximumf (mulf (broadcastInDim S100000x128 ![] Cert.ReferenceIdeal.Facts₀.bcast_S_S100000x128 (constant (F := Ideal) S_ .f32 0x3F000000#32)) (addf (addf a (rowBias (F := Ideal) bp)) (addf b (rowBias (F := Ideal) bs)))) (broadcastInDim S100000x128 ![] Cert.ReferenceIdeal.Facts₀.bcast_S_S100000x128 (constant (F := Ideal) S_ .f32 0x00000000#32)) := by
  funext i
  obtain ⟨r, j, rfl⟩ : ∃ (r : Fin 100000) (j : Fin 128), i = ix2 r j := ⟨i 0, i 1, eq_ix2 i⟩
  show max (Ideal.ofBits .f32 0x3F000000#32 * ((a (ix2 r j) + shapeCast S1x128 bp shapeCasts_S128_S1x128 (ix2 (0 : Fin 1) j)) + (b (ix2 r j) + shapeCast S1x128 bs shapeCasts_S128_S1x128 (ix2 (0 : Fin 1) j)))) (Ideal.ofBits .f32 0x00000000#32)
    = max (broadcastInDim S100000x128 ![] Cert.ReferenceIdeal.Facts₀.bcast_S_S100000x128 (constant (F := Ideal) S_ .f32 0x3F000000#32) (ix2 r j) * ((a (ix2 r j) + rowBias (F := Ideal) bp (ix2 r j)) + (b (ix2 r j) + rowBias (F := Ideal) bs (ix2 r j)))) (broadcastInDim S100000x128 ![] Cert.ReferenceIdeal.Facts₀.bcast_S_S100000x128 (constant (F := Ideal) S_ .f32 0x00000000#32) (ix2 r j))
  rw [shapeCast_a_1a_apply, shapeCast_a_1a_apply, rowBias_apply, rowBias_apply, spreadConstant_apply, spreadConstant_apply]

end Cert.GraphConv

end
-- ==== Proof.DenseBridge.lean ====
/-
  The kernel's arrangement of a layer, and of the classifier, equals the reference's.

  Three facts. (1) A product with two weight matrices laid side by side, cut back into its left and right column
  halves, is the two separate products: entry (r, j) of the left half is the sum over k of h (r, k) · Wp (k, j),
  which is the host's matrix product of h and Wp; likewise the right half and Ws. Only the arrangement of the
  columns differs, so no finiteness of the entries is used. (2) The bias-average-clamp combination with the biases
  laid as one-row arrays is the host's chain of a row broadcast, two sums, a product by one half and a maximum with
  zero (CombineLaw). (3) The classifier: a matrix product plus a bias row is the host's product plus the broadcast
  bias. With (1)-(3) the kernel's layer is the reference's layer and the kernel's logits are the reference's.
-/
import proofs.«167240_j41695542509880_1_alg».proof.Proof.KernelForm
import proofs.«167240_j41695542509880_1_alg».proof.Proof.LibPlainMatmul
import proofs.«167240_j41695542509880_1_alg».proof.Proof.LibPlainDot
import proofs.«167240_j41695542509880_1_alg».proof.Proof.CombineLaw
import Idealize.ShloMosaic.Lib.Pipeline.Value
import Idealize.ShloMosaic.Lib.ValueLayout
import Idealize.ShloMosaic.PureOps.Ideal.Laws

set_option maxRecDepth 16384

noncomputable section

namespace Cert.GraphConv

open Idealize.ShloMosaic Idealize.ShloMosaic.ValueIdx Idealize.ShloMosaic.PlainMatmul Cert.KernelIdeal
open Cert.KernelIdeal.Facts₀ Cert.KernelIdeal.Facts

/-- The product at (p, q) is the sum over the shared axis. -/
theorem matProd_apply (x : FVec Ideal ⟨2, ![100000, 128]⟩ .f32) (w : FVec Ideal ⟨2, ![128, 256]⟩ .f32) (p : Fin 100000) (q : Fin 256) :
    matProd x w (ix2 p q) = ∑ k : Fin 128, x (ix2 p k) * w (ix2 k q) := rfl

/-- A column of the first 128 of two matrices side by side is the first matrix's column. -/
theorem sideBySide_left (Wp Ws : FVec Ideal ⟨2, ![128, 128]⟩ .f32) (k : Fin 128) (q : Fin 128) (q' : Fin 256) (hq : q'.val = q.val) :
    sideBySide Wp Ws (ix2 k q') = Wp (ix2 k q) := by
  unfold sideBySide
  refine concatenate_pair_apply_left (t := S128x256) (s₁ := S128x128) (s₂ := S128x128) 1 Wp Ws _ (ix2 k q') rfl (ix2 k q) (fun b => ?_)
  match b with
  | ⟨0, _⟩ => rfl
  | ⟨1, _⟩ => exact hq.symm

/-- A column of the last 128 is the second matrix's column, 128 earlier. -/
theorem sideBySide_right (Wp Ws : FVec Ideal ⟨2, ![128, 128]⟩ .f32) (k : Fin 128) (q : Fin 128) (q' : Fin 256) (hq : q'.val = 128 + q.val) :
    sideBySide Wp Ws (ix2 k q') = Ws (ix2 k q) := by
  unfold sideBySide
  refine concatenate_pair_apply_right (t := S128x256) (s₁ := S128x128) (s₂ := S128x128) 1 Wp Ws _ (ix2 k q') rfl rfl (ix2 k q) (fun b hb => ?_) ?_
  · match b with
    | ⟨0, _⟩ => rfl
    | ⟨1, _⟩ => exact absurd rfl hb
  · show q.val + 128 = q'.val
    omega

/-- (1), left: the left column half of h · [Wp | Ws] is the host's product h · Wp. -/
theorem leftHalf_matProd (h : FVec Ideal ⟨2, ![100000, 128]⟩ .f32) (Wp Ws : FVec Ideal ⟨2, ![128, 128]⟩ .f32) :
    leftHalf (matProd h (sideBySide Wp Ws))
      = Host.dotGeneral (F := Ideal) Cert.ReferenceIdeal.dot_S100000x128_S128x128_S100000x128_1_0_0_1_n_n none h Wp := by
  funext i
  obtain ⟨p, q, rfl⟩ : ∃ (p : Fin 100000) (q : Fin 128), i = ix2 p q := ⟨i 0, i 1, eq_ix2 i⟩
  have hq : 0 + q.val < 256 := by omega
  refine (slice2_axis1_apply 0 _ slices_S100000x256_S100000x128_0_0 p q ⟨0 + q.val, hq⟩ rfl).trans ?_
  refine Eq.trans ?_ (dotGeneral_plain_apply (φ₁ := .f32) (φ₂ := .f32) _ rfl rfl rfl rfl rfl rfl rfl rfl none .single h Wp p q).symm
  rw [matProd_apply]
  exact Finset.sum_congr rfl fun k _ => by rw [sideBySide_left Wp Ws k q _ (Nat.zero_add _)]

/-- (1), right: the right column half of h · [Wp | Ws] is the host's product h · Ws. -/
theorem rightHalf_matProd (h : FVec Ideal ⟨2, ![100000, 128]⟩ .f32) (Wp Ws : FVec Ideal ⟨2, ![128, 128]⟩ .f32) :
    rightHalf (matProd h (sideBySide Wp Ws))
      = Host.dotGeneral (F := Ideal) Cert.ReferenceIdeal.dot_S100000x128_S128x128_S100000x128_1_0_0_1_n_n none h Ws := by
  funext i
  obtain ⟨p, q, rfl⟩ : ∃ (p : Fin 100000) (q : Fin 128), i = ix2 p q := ⟨i 0, i 1, eq_ix2 i⟩
  have hq : 128 + q.val < 256 := by omega
  refine (slice2_axis1_apply 128 _ slices_S100000x256_S100000x128_0_128 p q ⟨128 + q.val, hq⟩ rfl).trans ?_
  refine Eq.trans ?_ (dotGeneral_plain_apply (φ₁ := .f32) (φ₂ := .f32) _ rfl rfl rfl rfl rfl rfl rfl rfl none .single h Ws p q).symm
  rw [matProd_apply]
  exact Finset.sum_congr rfl fun k _ => by rw [sideBySide_right Wp Ws k q _ rfl]

/-- The kernel's layer is the reference's layer. -/
theorem layerK_eq (h : FVec Ideal ⟨2, ![100000, 128]⟩ .f32) (Wp : FVec Ideal ⟨2, ![128, 128]⟩ .f32) (bp : FVec Ideal ⟨1, ![128]⟩ .f32)
    (Ws : FVec Ideal ⟨2, ![128, 128]⟩ .f32) (bs : FVec Ideal ⟨1, ![128]⟩ .f32) (s1 d1 s2 d2 : IVec ⟨1, ![1600000]⟩ 32) :
    layerK h Wp bp Ws bs s1 d1 s2 d2 = layer (F := Ideal) h Wp bp Ws bs s1 d1 s2 d2 := by
  unfold layerK layer oneRow
  rw [leftHalf_matProd, rightHalf_matProd]
  exact combine_oneRow _ _ bp bs

/-- (3): the classifier's product plus bias row is the host's product plus broadcast bias. -/
theorem classify_bias (x : FVec Ideal ⟨2, ![200000, 256]⟩ .f32) (w : FVec Ideal ⟨2, ![256, 2]⟩ .f32) (bc : FVec Ideal ⟨1, ![2]⟩ .f32) :
    classify x w (shapeCast S1x2 bc shapeCasts_S2_S1x2)
      = addf (Host.dotGeneral (F := Ideal) Cert.ReferenceIdeal.dot_S200000x256_S256x2_S200000x2_1_0_0_1_n_n none x w)
          (broadcastInDim Cert.ReferenceIdeal.S200000x2 ![0, 1] Cert.ReferenceIdeal.Facts₀.bcast_S1x2_S200000x2_0_1
            (broadcastInDim Cert.ReferenceIdeal.S1x2 ![1] Cert.ReferenceIdeal.Facts₀.bcast_S2_S1x2_1 bc)) := by
  funext i
  obtain ⟨r, j, rfl⟩ : ∃ (r : Fin 200000) (j : Fin 2), i = ix2 r j := ⟨i 0, i 1, eq_ix2 i⟩
  have eb : broadcastInDim Cert.ReferenceIdeal.S200000x2 ![0, 1] Cert.ReferenceIdeal.Facts₀.bcast_S1x2_S200000x2_0_1
      (broadcastInDim Cert.ReferenceIdeal.S1x2 ![1] Cert.ReferenceIdeal.Facts₀.bcast_S2_S1x2_1 bc) (ix2 r j) = bc (ix1 j) := by
    refine (broadcastInDim_apply _ Cert.ReferenceIdeal.Facts₀.bcast_S1x2_S200000x2_0_1 _ (ix2 r j) (ix2 (0 : Fin 1) j) (fun a => ?_)).trans ?_
    · match a with
      | ⟨0, _⟩ => show 0 = if (1 : Nat) = 1 then 0 else r.val; rw [if_pos rfl]
      | ⟨1, _⟩ => show j.val = if (2 : Nat) = 1 then 0 else j.val; rw [if_neg (by decide)]
    · refine broadcastInDim_apply _ Cert.ReferenceIdeal.Facts₀.bcast_S2_S1x2_1 bc (ix2 (0 : Fin 1) j) (ix1 j) (fun a => ?_)
      match a with
      | ⟨0, _⟩ => show j.val = if (2 : Nat) = 1 then 0 else j.val; rw [if_neg (by decide)]
  show (∑ k : Fin 256, x (ix2 r k) * w (ix2 k j)) + shapeCast S1x2 bc shapeCasts_S2_S1x2 (ix2 (0 : Fin 1) j) = _
  rw [shapeCast_a_1a_apply]
  refine Eq.trans ?_ (congrArg₂ (· + ·) (dotGeneral_plain_apply (φ₁ := .f32) (φ₂ := .f32) _ rfl rfl rfl rfl rfl rfl rfl rfl none .single x w r j) eb).symm
  rfl

/-- The kernel's logits are the reference's logits. -/
theorem logitsK_eq (z : FVec Ideal ⟨2, ![100000, 128]⟩ .f32) (p q : IVec ⟨1, ![200000]⟩ 32) (Wc : FVec Ideal ⟨2, ![256, 2]⟩ .f32) (bc : FVec Ideal ⟨1, ![2]⟩ .f32) :
    logitsK z p q Wc bc = logits (F := Ideal) z p q Wc bc := by
  unfold logitsK logits
  exact classify_bias _ Wc bc

end Cert.GraphConv

end
-- ==== Proof.RefValue.lean ====
/-
  What the reference computes, in the specification's words.

  The reference's run ends with its two results at long composed terms of the launch arguments. Those terms are,
  operation for operation, the specification's layer applied twice to the node features — each time over the same
  two edge lists — and the pair classifier applied to the result: the equations below hold by unfolding the names.
-/
import proofs.«167240_j41695542509880_1_alg».proof.Proof.Gen.ReferenceIdeal.Run
import proofs.«167240_j41695542509880_1_alg».proof.Proof.GraphConv

set_option maxRecDepth 16384

noncomputable section

namespace Cert.ReferenceIdeal.RefValue

open Cert.ReferenceIdeal Cert.ReferenceIdeal.Gen Idealize.ShloMosaic Idealize.ShloMosaic.TcCoe Idealize.SL.Sem

variable {F : FTy → Type} [FloatOps F]
variable (m : (ℓ : Loc nD τ sig) → Buf (Elt F) ℓ) (c : Dev nD)

/-- The first layer's node table of the launch arguments. -/
def firstLayer : (⟨S100000x128, .f32⟩ : BufTy).Contents (Elt F) :=
  Cert.GraphConv.layer (m ((c.tc : Thread nD τ).loc main_arg0)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg1)) (m ((c.tc : Thread nD τ).loc main_arg2)) (m ((c.tc : Thread nD τ).loc main_arg3)) (m ((c.tc : Thread nD τ).loc main_arg4))

/-- The final node table of the launch arguments. -/
def nodes : (⟨S100000x128, .f32⟩ : BufTy).Contents (Elt F) :=
  Cert.GraphConv.layer (firstLayer m c) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg1)) (m ((c.tc : Thread nD τ).loc main_arg2)) (m ((c.tc : Thread nD τ).loc main_arg3)) (m ((c.tc : Thread nD τ).loc main_arg4))

/-- The reference's first result is the final node table. -/
theorem res_nodes : Value.res_main_v187 (F := F) m c = nodes m c := by
  unfold Value.res_main_v187
  rfl

/-- The reference's second result is the classifier on the final node table. -/
theorem res_logits : Value.res_main_v206 (F := F) m c
    = Cert.GraphConv.logits (nodes m c) (m ((c.tc : Thread nD τ).loc main_arg5)) (m ((c.tc : Thread nD τ).loc main_arg6)) (m ((c.tc : Thread nD τ).loc main_arg15)) (m ((c.tc : Thread nD τ).loc main_arg16)) := by
  unfold Value.res_main_v206
  rfl

end Cert.ReferenceIdeal.RefValue

end
-- ==== Proof.Agreement.lean ====
/-
  The two programs' results agree.

  From memories that agree on the seventeen arguments: the reference's node table is the specification's layer
  applied twice to its arguments, hence to the kernel's; the kernel's node table is its own arrangement of a layer
  applied twice, and that arrangement is the specification's layer (DenseBridge). The same for the pair logits.
-/
import proofs.«167240_j41695542509880_1_alg».proof.Proof.Boundaries
import proofs.«167240_j41695542509880_1_alg».proof.Proof.DenseBridge
import proofs.«167240_j41695542509880_1_alg».proof.Proof.RefValue

set_option maxRecDepth 16384

noncomputable section

namespace Cert.Proof.Agree

open Idealize.ShloMosaic Idealize.ShloMosaic.TcCoe Idealize.SL.Sem

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- The kernel's first-layer table is the specification's layer of its arguments. -/
theorem firstLayer_spec : Cert.KernelIdeal.Final.firstLayer m c
    = Cert.GraphConv.layer (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  unfold Cert.KernelIdeal.Final.firstLayer
  exact Cert.GraphConv.layerK_eq _ _ _ _ _ _ _ _ _

/-- The kernel's final node table is the specification's layer applied twice. -/
theorem secondLayer_spec : Cert.KernelIdeal.Final.secondLayer m c
    = Cert.GraphConv.layer (F := Ideal) (Cert.GraphConv.layer (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
        (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  unfold Cert.KernelIdeal.Final.secondLayer
  rw [firstLayer_spec m c]
  exact Cert.GraphConv.layerK_eq _ _ _ _ _ _ _ _ _

/-- The reference's node table, from arguments agreeing with the kernel's, is the kernel's. -/
theorem nodes_agree (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))) (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))) (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))) (h3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))) (h4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))) (h7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))) (h8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))) (h9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))) (h10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))) (h11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))) (h12 : (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12))) (h13 : (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13))) (h14 : (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14))) :
    Cert.ReferenceIdeal.RefValue.nodes (F := Ideal) m' c = Cert.KernelIdeal.Final.secondLayer m c := by
  unfold Cert.ReferenceIdeal.RefValue.nodes Cert.ReferenceIdeal.RefValue.firstLayer
  rw [h0, h1, h2, h3, h4, h7, h8, h9, h10, h11, h12, h13, h14]
  exact (secondLayer_spec m c).symm

/-- The reference's pair logits, from arguments agreeing with the kernel's, are the kernel's. -/
theorem logits_agree (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))) (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))) (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))) (h3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))) (h4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))) (h5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))) (h6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))) (h7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))) (h8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))) (h9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))) (h10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))) (h11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))) (h12 : (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12))) (h13 : (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13))) (h14 : (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14))) (h15 : (m' ((c.tc : Thread Cert.ReferenceIdeal.nD Cert.ReferenceIdeal.τ).loc Cert.ReferenceIdeal.main_arg15)) = (m ((c.tc : Thread Cert.KernelIdeal.nD Cert.KernelIdeal.τ).loc Cert.KernelIdeal.main_arg15))) (h16 : (m' ((c.tc : Thread Cert.ReferenceIdeal.nD Cert.ReferenceIdeal.τ).loc Cert.ReferenceIdeal.main_arg16)) = (m ((c.tc : Thread Cert.KernelIdeal.nD Cert.KernelIdeal.τ).loc Cert.KernelIdeal.main_arg16))) :
    Cert.GraphConv.logits (F := Ideal) (Cert.ReferenceIdeal.RefValue.nodes (F := Ideal) m' c) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16))
      = Cert.GraphConv.logitsK (Cert.KernelIdeal.Final.secondLayer m c) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) := by
  rw [nodes_agree m m' c h0 h1 h2 h3 h4 h7 h8 h9 h10 h11 h12 h13 h14, h5, h6, h15, h16]
  exact (Cert.GraphConv.logitsK_eq _ _ _ _ _).symm

end Cert.Proof.Agree

end
-- ==== Proof.lean ====
/-
  The certificate of a two-layer, two-relation graph convolution with a pair classifier against its jnp reference.

  Both programs compute, per layer and per relation, a degree-normalised aggregation of the projected node features
  over an edge list (gathers and scatter-adds on the host, the same operations in both), add the relation's bias,
  average the two relations and clamp at zero; then they classify pairs of rows of the final node table with one
  affine map. The kernel does the dense parts in five pipelined regions: it projects with the two relations' weight
  matrices laid side by side in one product and cuts the product's columns in two; it adds the biases, averages and
  clamps in one pass; it classifies block by block. Over the extended reals each region's output array is one
  index-by-index function of its input arrays (ProjRegion, CombineRegion, ClassifyRegion); the buffers at the
  boundaries between regions and host stretches read back to the launch arguments (HostStretches, Boundaries); a
  product with side-by-side weights cut back into halves is the two separate products, a rearrangement of columns
  that needs no finiteness (DenseBridge); and the reference's run is the same layer applied twice (RefValue). So
  from memories agreeing on the arguments both programs end with the same node table and the same logits
  (Agreement). The frames of the two kernel programs are the generated ones; the reference's frame is its run with
  the results dropped; the idealization rewrote nothing, so preserves is trivial.
-/
import proofs.«167240_j41695542509880_1_alg».proof.Defs
import proofs.«167240_j41695542509880_1_alg».proof.Proof.Gen.Kernel
import proofs.«167240_j41695542509880_1_alg».proof.Proof.Gen.Kernel.Skeleton
import proofs.«167240_j41695542509880_1_alg».proof.Proof.Gen.Kernel.Launch
import proofs.«167240_j41695542509880_1_alg».proof.Proof.Gen.Kernel.Points
import proofs.«167240_j41695542509880_1_alg».proof.Proof.Gen.Kernel.Frame
import proofs.«167240_j41695542509880_1_alg».proof.Proof.Gen.KernelIdeal
import proofs.«167240_j41695542509880_1_alg».proof.Proof.Gen.KernelIdeal.Skeleton
import proofs.«167240_j41695542509880_1_alg».proof.Proof.Gen.KernelIdeal.Launch
import proofs.«167240_j41695542509880_1_alg».proof.Proof.Gen.KernelIdeal.Points
import proofs.«167240_j41695542509880_1_alg».proof.Proof.Gen.KernelIdeal.Frame
import proofs.«167240_j41695542509880_1_alg».proof.Proof.Gen.ReferenceIdeal
import proofs.«167240_j41695542509880_1_alg».proof.Proof.Gen.ReferenceIdeal.Run
import proofs.«167240_j41695542509880_1_alg».proof.Proof.Gen.Pre_finite_inputs
import proofs.«167240_j41695542509880_1_alg».proof.Proof.KernelRun
import proofs.«167240_j41695542509880_1_alg».proof.Proof.Agreement
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The reference runs and leaves its arguments unchanged: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both idealized programs end with the same node table and the same
    pair logits: the kernel's at the last boundary's contents read back to its arguments, the reference's at its
    run's terms, which are the same functions of arguments that agree. -/
theorem algebraic : Cert.algebraic_KernelIdeal_ReferenceIdeal := by
  intro m ρ m' ρ' _ hagree
  refine ⟨fun c => Cert.KernelIdeal.Final.secondLayer m c,
    fun c => Cert.GraphConv.logitsK (Cert.KernelIdeal.Final.secondLayer m c) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KernelIdeal.Final.nodes_final m ρ c),
        (h c).2.1.trans (Cert.KernelIdeal.Final.logits_final m ρ c), (h c).2.2⟩)
      (Cert.KernelIdeal.Final.run_results m ρ)
  · refine (θ_run Cert.ReferenceIdeal.defs _ _).mono (fun r h c => ?_) (Cert.ReferenceIdeal.Value.run (F := Ideal) m' ρ')
    obtain ⟨h0, h1, h2, h3, h4, h5, h6, h7, h8, h9, h10, h11, h12, h13, h14, h15, h16⟩ := hagree c
    exact ⟨(h c).1.trans ((Cert.ReferenceIdeal.RefValue.res_nodes m' c).trans
        (Cert.Proof.Agree.nodes_agree m m' c h0 h1 h2 h3 h4 h7 h8 h9 h10 h11 h12 h13 h14)),
      (h c).2.1.trans ((Cert.ReferenceIdeal.RefValue.res_logits m' c).trans
        (Cert.Proof.Agree.logits_agree m m' c h0 h1 h2 h3 h4 h5 h6 h7 h8 h9 h10 h11 h12 h13 h14 h15 h16)),
      (h c).2.2⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
